-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S1024x3584 : Shape := ⟨2, ![1024, 3584]⟩
abbrev S3584 : Shape := ⟨1, ![3584]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S1024x3584 : S_.BroadcastsInDim S1024x3584 (![] : Fin 0 → Fin S1024x3584.rank)
  reducesTo_S1024x3584_S_d0_1 : S1024x3584.ReducesTo [0, 1] S_
  bcast_S_S3584 : S_.BroadcastsInDim S3584 (![] : Fin 0 → Fin S3584.rank)
  reducesTo_S3584_S_d0 : S3584.ReducesTo [0] S_

variable [Facts]

def fn_part1 {F : FTy → Type} [FloatOps F] (main_arg4 : FVec F S1024x3584 .f32) (main_arg5 : FVec F S3584 .f32) (main_v13 : IVec S_ 1) (main_v16 : IVec S32768x512 1) : IVec S_ 1 :=
  let main_c_5 : IVec S_ 1 := constantI S_ 1 1#1
  let main_v17 : IVec S_ 1 := (fun x v => Host.reduce IntOp.andi x v reducesTo_S32768x512_S_d0_1 h_S_) main_v16 main_c_5
  let main_v18 : IVec S_ 1 := andi main_v13 main_v17
  let main_v19 : FVec F S1024x3584 .f32 := Host.absf main_arg4
  let main_cst_6 : FVec F S_ .f32 := constant S_ .f32 0x7F800000#32
  let main_v20 : FVec F S1024x3584 .f32 := broadcastInDim S1024x3584 ![] bcast_S_S1024x3584 main_cst_6
  let main_v21 : IVec S1024x3584 1 := cmpf .olt main_v19 main_v20
  let main_c_7 : IVec S_ 1 := constantI S_ 1 1#1
  let main_v22 : IVec S_ 1 := (fun x v => Host.reduce IntOp.andi x v reducesTo_S1024x3584_S_d0_1 h_S_) main_v21 main_c_7
  let main_v23 : IVec S_ 1 := andi main_v18 main_v22
  let main_v24 : FVec F S3584 .f32 := Host.absf main_arg5
  let main_cst_8 : FVec F S_ .f32 := constant S_ .f32 0x7F800000#32
  let main_v25 : FVec F S3584 .f32 := broadcastInDim S3584 ![] bcast_S_S3584 main_cst_8
  let main_v26 : IVec S3584 1 := cmpf .olt main_v24 main_v25
  let main_c_9 : IVec S_ 1 := constantI S_ 1 1#1
  let main_v27 : IVec S_ 1 := (fun x v => Host.reduce IntOp.andi x v reducesTo_S3584_S_d0 h_S_) main_v26 main_c_9
  let main_v28 : IVec S_ 1 := andi main_v23 main_v27
  main_v28

def fn {F : FTy → Type} [FloatOps F] (main_arg0 : FVec F S32768x512 .f32) (main_arg1 : FVec F S32768x512 .f32) (main_arg2 : FVec F S32768x512 .f32) (main_arg3 : FVec F S32768x512 .f32) (main_arg4 : FVec F S1024x3584 .f32) (main_arg5 : FVec F S3584 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S32768x512 .f32 := Host.absf main_arg3
  let main_cst_4 : FVec F S_ .f32 := constant S_ .f32 0x7F800000#32
  let main_v15 : FVec F S32768x512 .f32 := broadcastInDim S32768x512 ![] bcast_S_S32768x512 main_cst_4
  let main_v16 : IVec S32768x512 1 := cmpf .olt main_v14 main_v15
  fn_part1 (F := F) main_arg4 main_arg5 main_v13 main_v16
-- ==== Kernel.lean ====
abbrev S32768x512 : Shape := ⟨2, ![32768, 512]⟩
abbrev S1024x3584 : Shape := ⟨2, ![1024, 3584]⟩
abbrev S3584 : Shape := ⟨1, ![3584]⟩
abbrev S512x3584 : Shape := ⟨2, ![512, 3584]⟩
abbrev S1x3584 : Shape := ⟨2, ![1, 3584]⟩
abbrev S256x512 : Shape := ⟨2, ![256, 512]⟩
abbrev S256x3584 : Shape := ⟨2, ![256, 3584]⟩

abbrev nBuf : Space → Nat
  | .hbm => 15
  | .vmem => 19
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S1024x3584, .f32⟩
  | .hbm, ⟨5, _⟩ => ⟨S3584, .f32⟩
  | .hbm, ⟨6, _⟩ => ⟨S512x3584, .f32⟩
  | .hbm, ⟨7, _⟩ => ⟨S512x3584, .bf16⟩
  | .hbm, ⟨8, _⟩ => ⟨S512x3584, .f32⟩
  | .hbm, ⟨9, _⟩ => ⟨S512x3584, .bf16⟩
  | .hbm, ⟨10, _⟩ => ⟨S1x3584, .f32⟩
  | .hbm, ⟨11, _⟩ => ⟨S32768x512, .f32⟩
  | .hbm, ⟨12, _⟩ => ⟨S32768x512, .f32⟩
  | .hbm, ⟨13, _⟩ => ⟨S32768x512, .f32⟩
  | .hbm, ⟨14, _⟩ => ⟨S32768x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S512x3584, .bf16⟩
  | .local _ .vmem, ⟨9, _⟩ => ⟨S512x3584, .bf16⟩
  | .local _ .vmem, ⟨10, _⟩ => ⟨S1x3584, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S1024x3584_S512x3584_0_0 : S1024x3584.Slices ![0, 0] S512x3584
  bitsLt_bf16_f32 : FTy.bits .bf16 < FTy.bits .f32
  slices_S1024x3584_S512x3584_512_0 : S1024x3584.Slices ![512, 0] S512x3584
  shapeCasts_S3584_S1x3584 : S3584.ShapeCasts S1x3584
  inb_S256x512_S256x512_0_0 : ∀ a, (![0, 0] : Fin 2 → Nat) a + S256x512.size a ≤ S256x512.size a
  h_S256x512 : 0 < S256x512.numel
  inb_S512x3584_S512x3584_0_0 : ∀ a, (![0, 0] : Fin 2 → Nat) a + S512x3584.size a ≤ S512x3584.size a
  h_S512x3584 : 0 < S512x3584.numel
  shapeCasts_S512x3584_S512x3584 : S512x3584.ShapeCasts S512x3584
  inb_S1x3584_S1x3584_0_0 : ∀ a, (![0, 0] : Fin 2 → Nat) a + S1x3584.size a ≤ S1x3584.size a
  h_S1x3584 : 0 < S1x3584.numel
  shapeCasts_S1x3584_S1x3584 : S1x3584.ShapeCasts S1x3584
  broadcasts_S1x3584_S256x3584 : S1x3584.Broadcasts S256x3584
  slices_S256x3584_o0_0_S256x512 : S256x3584.Slices ![0, 0] S256x512
  slices_S256x3584_o0_512_S256x512 : S256x3584.Slices ![0, 512] S256x512
  slices_S256x3584_o0_1024_S256x512 : S256x3584.Slices ![0, 1024] S256x512
  slices_S256x3584_o0_1536_S256x512 : S256x3584.Slices ![0, 1536] S256x512
  slices_S256x3584_o0_2048_S256x512 : S256x3584.Slices ![0, 2048] S256x512
  slices_S256x3584_o0_2560_S256x512 : S256x3584.Slices ![0, 2560] S256x512
  slices_S256x3584_o0_3072_S256x512 : S256x3584.Slices ![0, 3072] S256x512
  dot_S256x512_S512x3584_S256x3584_1_0_0_1_n_n_wf : DotDims.WF S256x512 S512x3584 S256x3584 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S32768x512.size a
  hwx0_0 : ∀ i : grid0.Coords, EltTy.bits .f32 = 32 ∨ (Rect.block (s := S32768x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S32768x512.size a
  hwx0_1 : ∀ i : grid0.Coords, EltTy.bits .f32 = 32 ∨ (Rect.block (s := S32768x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S32768x512.size a
  hwx0_2 : ∀ i : grid0.Coords, EltTy.bits .f32 = 32 ∨ (Rect.block (s := S32768x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S32768x512.size a
  hwx0_3 : ∀ i : grid0.Coords, EltTy.bits .f32 = 32 ∨ (Rect.block (s := S32768x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x3584.size a ≤ S512x3584.size a
  hwx0_4 : ∀ i : grid0.Coords, EltTy.bits .bf16 = 32 ∨ (Rect.block (s := S512x3584) S512x3584.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x3584.size a ≤ S512x3584.size a
  hwx0_5 : ∀ i : grid0.Coords, EltTy.bits .bf16 = 32 ∨ (Rect.block (s := S512x3584) S512x3584.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3584.size a ≤ S1x3584.size a
  hwx0_6 : ∀ i : grid0.Coords, EltTy.bits .f32 = 32 ∨ (Rect.block (s := S1x3584) S1x3584.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S32768x512.size a
  hwx0_7 : ∀ i : grid0.Coords, EltTy.bits .f32 = 32 ∨ (Rect.block (s := S32768x512) S256x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S32768x512.size a
  hwx0_8 : ∀ i : grid0.Coords, EltTy.bits .f32 = 32 ∨ (Rect.block (s := S32768x512) S256x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x512.size a ≤ S32768x512.size a
  hwx0_9 : ∀ i : grid0.Coords, EltTy.bits .f32 = 32 ∨ (Rect.block (s := S32768x512) S256x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x512.size a ≤ S32768x512.size a
  hwx0_10 : ∀ i : grid0.Coords, EltTy.bits .f32 = 32 ∨ (Rect.block (s := S32768x512) S256x512.size (cc0_transform_10 i) (hinb0_10 i)).WholeWords (EltTy.packing .f32)

variable [Facts₀]

def dot_S256x512_S512x3584_S256x3584_1_0_0_1_n_n : DotDims S256x512 S512x3584 S256x3584 where
  lhsContracting := [1]
  rhsContracting := [0]
  lhsNonContracting := [0]
  rhsNonContracting := [1]
  lhsBatch := []
  rhsBatch := []
  wf := dot_S256x512_S512x3584_S256x3584_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x3584.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x3584.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x3584.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5_0) S256x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_1) S256x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_2) S256x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_3) S256x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32768x512 : Shape := ⟨2, ![32768, 512]⟩
abbrev S1024x3584 : Shape := ⟨2, ![1024, 3584]⟩
abbrev S3584 : Shape := ⟨1, ![3584]⟩
abbrev S32768x1024 : Shape := ⟨2, ![32768, 1024]⟩
abbrev S32768x3584 : Shape := ⟨2, ![32768, 3584]⟩
abbrev S1x3584 : Shape := ⟨2, ![1, 3584]⟩
abbrev S_ : Shape := ⟨0, ![]⟩

abbrev nBuf : Space → Nat
  | .hbm => 85
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S1024x3584, .f32⟩
  | .hbm, ⟨5, _⟩ => ⟨S3584, .f32⟩
  | .hbm, ⟨6, _⟩ => ⟨S32768x1024, .f32⟩
  | .hbm, ⟨7, _⟩ => ⟨S32768x3584, .f32⟩
  | .hbm, ⟨8, _⟩ => ⟨S1x3584, .f32⟩
  | .hbm, ⟨9, _⟩ => ⟨S32768x3584, .f32⟩
  | .hbm, ⟨10, _⟩ => ⟨S32768x3584, .f32⟩
  | .hbm, ⟨11, _⟩ => ⟨S32768x512, .f32⟩
  | .hbm, ⟨12, _⟩ => ⟨S32768x512, .f32⟩
  | .hbm, ⟨13, _⟩ => ⟨S32768x512, .f32⟩
  | .hbm, ⟨14, _⟩ => ⟨S32768x512, .f32⟩
  | .hbm, ⟨15, _⟩ => ⟨S32768x512, .f32⟩
  | .hbm, ⟨16, _⟩ => ⟨S32768x512, .f32⟩
  | .hbm, ⟨17, _⟩ => ⟨S32768x512, .f32⟩
  | .hbm, ⟨18, _⟩ => ⟨S32768x512, .f32⟩
  | .hbm, ⟨19, _⟩ => ⟨S32768x512, .f32⟩
  | .hbm, ⟨20, _⟩ => ⟨S_, .f32⟩
  | .hbm, ⟨21, _⟩ => ⟨S32768x512, .f32⟩
  | .hbm, ⟨22, _⟩ => ⟨S32768x512, .f32⟩
  | .hbm, ⟨23, _⟩ => ⟨S_, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S_, .f32⟩
  | .hbm, ⟨29, _⟩ => ⟨S32768x512, .f32⟩
  | .hbm, ⟨30, _⟩ => ⟨S32768x512, .f32⟩
  | .hbm, ⟨31, _⟩ => ⟨S_, .f32⟩
  | .hbm, ⟨32, _⟩ => ⟨S32768x512, .f32⟩
  | .hbm, ⟨33, _⟩ => ⟨S32768x512, .f32⟩
  | .hbm, ⟨34, _⟩ => ⟨S32768x512, .f32⟩
  | .hbm, ⟨35, _⟩ => ⟨S32768x512, .f32⟩
  | .hbm, ⟨36, _⟩ => ⟨S_, .f32⟩
  | .hbm, ⟨37, _⟩ => ⟨S32768x512, .f32⟩
  | .hbm, ⟨38, _⟩ => ⟨S32768x512, .f32⟩
  | .hbm, ⟨39, _⟩ => ⟨S_, .f32⟩
  | .hbm, ⟨40, _⟩ => ⟨S32768x512, .f32⟩
  | .hbm, ⟨41, _⟩ => ⟨S32768x512, .f32⟩
  | .hbm, ⟨42, _⟩ => ⟨S32768x512, .f32⟩
  | .hbm, ⟨43, _⟩ => ⟨S32768x512, .f32⟩
  | .hbm, ⟨44, _⟩ => ⟨S_, .f32⟩
  | .hbm, ⟨45, _⟩ => ⟨S32768x512, .f32⟩
  | .hbm, ⟨46, _⟩ => ⟨S32768x512, .f32⟩
  | .hbm, ⟨47, _⟩ => ⟨S_, .f32⟩
  | .hbm, ⟨48, _⟩ => ⟨S32768x512, .f32⟩
  | .hbm, ⟨49, _⟩ => ⟨S32768x512, .f32⟩
  | .hbm, ⟨50, _⟩ => ⟨S32768x512, .f32⟩
  | .hbm, ⟨51, _⟩ => ⟨S32768x512, .f32⟩
  | .hbm, ⟨52, _⟩ => ⟨S_, .f32⟩
  | .hbm, ⟨53, _⟩ => ⟨S32768x512, .f32⟩
  | .hbm, ⟨54, _⟩ => ⟨S32768x512, .f32⟩
  | .hbm, ⟨55, _⟩ => ⟨S_, .f32⟩
  | .hbm, ⟨56, _⟩ => ⟨S32768x512, .f32⟩
  | .hbm, ⟨57, _⟩ => ⟨S32768x512, .f32⟩
  | .hbm, ⟨58, _⟩ => ⟨S32768x512, .f32⟩
  | .hbm, ⟨59, _⟩ => ⟨S_, .f32⟩
  | .hbm, ⟨60, _⟩ => ⟨S32768x512, .f32⟩
  | .hbm, ⟨61, _⟩ => ⟨S32768x512, .f32⟩
  | .hbm, ⟨62, _⟩ => ⟨S_, .f32⟩
  | .hbm, ⟨63, _⟩ => ⟨S32768x512, .f32⟩
  | .hbm, ⟨64, _⟩ => ⟨S32768x512, .f32⟩
  | .hbm, ⟨65, _⟩ => ⟨S32768x512, .f32⟩
  | .hbm, ⟨66, _⟩ => ⟨S32768x512, .f32⟩
  | .hbm, ⟨67, _⟩ => ⟨S32768x512, .i1⟩
  | .hbm, ⟨68, _⟩ => ⟨S32768x512, .f32⟩
  | .hbm, ⟨69, _⟩ => ⟨S32768x512, .f32⟩
  | .hbm, ⟨70, _⟩ => ⟨S32768x512, .f32⟩
  | .hbm, ⟨71, _⟩ => ⟨S32768x512, .f32⟩
  | .hbm, ⟨72, _⟩ => ⟨S32768x512, .f32⟩
  | .hbm, ⟨73, _⟩ => ⟨S32768x512, .f32⟩
  | .hbm, ⟨74, _⟩ => ⟨S32768x512, .f32⟩
  | .hbm, ⟨75, _⟩ => ⟨S32768x512, .f32⟩
  | .hbm, ⟨76, _⟩ => ⟨S_, .f32⟩
  | .hbm, ⟨77, _⟩ => ⟨S32768x512, .f32⟩
  | .hbm, ⟨78, _⟩ => ⟨S32768x512, .f32⟩
  | .hbm, ⟨79, _⟩ => ⟨S32768x512, .f32⟩
  | .hbm, ⟨80, _⟩ => ⟨S32768x512, .f32⟩
  | .hbm, ⟨81, _⟩ => ⟨S32768x512, .f32⟩
  | .hbm, ⟨82, _⟩ => ⟨S32768x512, .f32⟩
  | .hbm, ⟨83, _⟩ => ⟨S32768x512, .f32⟩
  | .hbm, ⟨84, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_call0_cst : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_v8 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩

abbrev nD : Nat := 1
abbrev τ : Topo := Topo.v7x

variable {F : FTy → Type} [FloatOps F]

class Facts₀ : Prop where
  concatenates_S32768x512_S32768x512_S32768x1024_d1 : Shape.Concatenates [S32768x512, S32768x512] S32768x1024 1
  bcast_S3584_S1x3584_1 : S3584.BroadcastsInDim S1x3584 (![1] : Fin 1 → Fin S1x3584.rank)
  bcast_S1x3584_S32768x3584_0_1 : S1x3584.BroadcastsInDim S32768x3584 (![0, 1] : Fin 2 → Fin S32768x3584.rank)
  slices_S32768x3584_S32768x512_0_0 : S32768x3584.Slices ![0, 0] S32768x512
  slices_S32768x3584_S32768x512_0_512 : S32768x3584.Slices ![0, 512] S32768x512
  slices_S32768x3584_S32768x512_0_1024 : S32768x3584.Slices ![0, 1024] S32768x512
  slices_S32768x3584_S32768x512_0_1536 : S32768x3584.Slices ![0, 1536] S32768x512
  slices_S32768x3584_S32768x512_0_2048 : S32768x3584.Slices ![0, 2048] S32768x512
  slices_S32768x3584_S32768x512_0_2560 : S32768x3584.Slices ![0, 2560] S32768x512
  slices_S32768x3584_S32768x512_0_3072 : S32768x3584.Slices ![0, 3072] S32768x512
  bcast_S_S32768x512 : S_.BroadcastsInDim S32768x512 (![] : Fin 0 → Fin S32768x512.rank)
  dot_S32768x1024_S1024x3584_S32768x3584_1_0_0_1_n_n_wf : DotDims.WF S32768x1024 S1024x3584 S32768x3584 [1] [0] [0] [1] [] []

variable [Facts₀]

def dot_S32768x1024_S1024x3584_S32768x3584_1_0_0_1_n_n : DotDims S32768x1024 S1024x3584 S32768x3584 where
  lhsContracting := [1]
  rhsContracting := [0]
  lhsNonContracting := [0]
  rhsNonContracting := [1]
  lhsBatch := []
  rhsBatch := []
  wf := dot_S32768x1024_S1024x3584_S32768x3584_1_0_0_1_n_n_wf

class Facts : Prop extends Facts₀ where

variable [Facts]
-- ==== Proof.Halves.lean ====
/-
  Extended-real algebra shared by the two programs, free of either program's text.

  * One contraction over the 1024 joined feature columns is the sum of the contractions over its two
    halves of 512: the first half multiplies the input features, the second the hidden-state features.
    Only commutativity and associativity of addition are used, so it holds on the extended reals with
    no finiteness assumption.
  * The float word 0x3F800000 denotes the real number one.
  * The sigmoid written out as a quotient, 1 / (1 + e^(-g)), with that word for both ones, is the
    logistic function.
  * Subtracting from the zero word is negation.
-/
import Idealize.ShloMosaic.PureOps.Ideal
import Idealize.ShloMosaic.PureOps.Ideal.Laws

noncomputable section

namespace Cert.Cell

open Idealize.ShloMosaic

/-- A sum over `Fin 1024` splits at 512: indices `k` and `512 + k` for `k < 512`. -/
theorem sum_halves {M : Type*} [AddCommMonoid M] (f : Fin 1024 → M) :
    ∑ k : Fin 1024, f k
      = (∑ k : Fin 512, f ⟨k.val, by omega⟩) + ∑ k : Fin 512, f ⟨512 + k.val, by omega⟩ :=
  Fin.sum_univ_add (a := 512) (b := 512) f

/-- The word of `1.0` denotes the real one. -/
theorem one_word : Ideal.ofBits .f32 0x3F800000#32 = 1 := by
  simp [Ideal.ofBits, Ideal.ieee]
  rw [← EReal.coe_mul]
  norm_num

/-- The sigmoid spelt as a quotient with the word of `1.0` is the logistic function. -/
theorem logistic_quotient (g : EReal) :
    Ideal.div (Ideal.ofBits .f32 0x3F800000#32) (Ideal.ofBits .f32 0x3F800000#32 + Ideal.exp (-g))
      = Ideal.logistic g := by
  rw [one_word]; rfl

/-- Subtracting from the zero word negates. -/
theorem zero_word_sub (y : EReal) : Ideal.ofBits .f32 0x00000000#32 - y = -y := by
  rw [Ideal.ofBits_zero_f32, zero_sub]

/-- The not-equal comparison of a value with itself is one function whether spelt ordered or unordered:
    nothing is unordered on the extended reals. -/
theorem cmp_one_une (x y : EReal) : Ideal.cmp .one x y = Ideal.cmp .une x y := rfl

end Cert.Cell

end
-- ==== Proof.Preact.lean ====
/-
  The pre-activation: the 3584 gate inputs of every batch row.

  The kernel forms them block by block of 256 rows as (x-block · Wx) + (h-block · Wh) + bias row, each
  product into a zero accumulator; the reference as ([x | h] · W) + bias, one product over the 1024 joined
  feature columns. With Wx the first 512 rows of W and Wh the last 512, entry (r, j) of both is

      Σ_{k<512} x[r,k]·W[k,j]  +  Σ_{k<512} h[r,k]·W[512+k,j]  +  b[j] :

  the reference's one sum splits at k = 512, its left factor being x[r,k] below 512 and h[r,k-512] from
  512 on. Changes of float format are the identity on the extended reals, so the kernel's narrowing of
  both factors before each product does not show.
-/
import proofs.«111469_j9715216023707_1_alg».proof.Proof.Gen.KernelIdeal.Skeleton
import proofs.«111469_j9715216023707_1_alg».proof.Proof.Gen.ReferenceIdeal.Read
import proofs.«111469_j9715216023707_1_alg».proof.Proof.Halves
import Idealize.ShloMosaic.Lib.ValueIdx
import Idealize.ShloMosaic.Lib.Pipeline.Value
import Idealize.ShloMosaic.PureOps.Ideal.Laws

noncomputable section

namespace Cert.Cell

open Idealize.ShloMosaic Idealize.ShloMosaic.ValueIdx

/-! ## The kernel's side: one block of 256 rows -/

section KernelSide

open Cert.KernelIdeal Cert.KernelIdeal.Gen

theorem prod_lhs_row (i : S256x3584.Idx) (q : dot_S256x512_S512x3584_S256x3584_1_0_0_1_n_n.contr.Idx) :
    (dot_S256x512_S512x3584_S256x3584_1_0_0_1_n_n.lhsIdx i q 0).val = (i 0).val := by
  unfold DotDims.lhsIdx
  rw [dif_neg (show ¬(0 : Fin S256x512.rank) ∈ dot_S256x512_S512x3584_S256x3584_1_0_0_1_n_n.lhsBatch by decide),
    dif_pos (show (0 : Fin S256x512.rank) ∈ dot_S256x512_S512x3584_S256x3584_1_0_0_1_n_n.lhsNonContracting by decide)]
  rfl

theorem prod_lhs_col (i : S256x3584.Idx) (q : dot_S256x512_S512x3584_S256x3584_1_0_0_1_n_n.contr.Idx) :
    (dot_S256x512_S512x3584_S256x3584_1_0_0_1_n_n.lhsIdx i q 1).val = (q ⟨0, by decide⟩).val :=
  dot_S256x512_S512x3584_S256x3584_1_0_0_1_n_n.lhsIdx_val_of_single rfl i q

theorem prod_rhs_row (i : S256x3584.Idx) (q : dot_S256x512_S512x3584_S256x3584_1_0_0_1_n_n.contr.Idx) :
    (dot_S256x512_S512x3584_S256x3584_1_0_0_1_n_n.rhsIdx i q 0).val = (q ⟨0, by decide⟩).val :=
  dot_S256x512_S512x3584_S256x3584_1_0_0_1_n_n.rhsIdx_val_of_single rfl i q

theorem prod_rhs_col (i : S256x3584.Idx) (q : dot_S256x512_S512x3584_S256x3584_1_0_0_1_n_n.contr.Idx) :
    (dot_S256x512_S512x3584_S256x3584_1_0_0_1_n_n.rhsIdx i q 1).val = (i 1).val := by
  unfold DotDims.rhsIdx
  rw [dif_neg (show ¬(1 : Fin S512x3584.rank) ∈ dot_S256x512_S512x3584_S256x3584_1_0_0_1_n_n.rhsBatch by decide),
    dif_pos (show (1 : Fin S512x3584.rank) ∈ dot_S256x512_S512x3584_S256x3584_1_0_0_1_n_n.rhsNonContracting by decide)]
  rfl

/-- A 256×512 block times a 512×3584 matrix into a zero accumulator, at entry (p, j): the sum over the 512
    shared indices of row p of the block against column j of the matrix. -/
theorem block_product_apply (a : FVec Ideal S256x512 .bf16) (w : FVec Ideal S512x3584 .bf16) (p : Fin 256) (j : Fin 3584) :
    matmul dot_S256x512_S512x3584_S256x3584_1_0_0_1_n_n none a w (constant (F := Ideal) S256x3584 .f32 0x00000000#32) (ix2 p j)
      = ∑ k : Fin 512, a (ix2 p k) * w (ix2 k j) := by
  show FloatOps.matmul dot_S256x512_S512x3584_S256x3584_1_0_0_1_n_n none a w (constant (F := Ideal) S256x3584 .f32 0x00000000#32) (ix2 p j) = _
  rw [Ideal.matmul_constant_zero_apply, ← Equiv.sum_comp (contrEquiv1 dot_S256x512_S512x3584_S256x3584_1_0_0_1_n_n 512 rfl rfl).symm]
  refine Finset.sum_congr rfl fun k _ => ?_
  have hk := contrEquiv1_symm_val dot_S256x512_S512x3584_S256x3584_1_0_0_1_n_n 512 rfl rfl k
  have el : dot_S256x512_S512x3584_S256x3584_1_0_0_1_n_n.lhsIdx (ix2 p j) ((contrEquiv1 dot_S256x512_S512x3584_S256x3584_1_0_0_1_n_n 512 rfl rfl).symm k) = ix2 p k :=
    funext fun a => Fin.ext (by
      match a with
      | ⟨0, _⟩ => exact prod_lhs_row _ _
      | ⟨1, _⟩ => exact (prod_lhs_col _ _).trans hk)
  have er : dot_S256x512_S512x3584_S256x3584_1_0_0_1_n_n.rhsIdx (ix2 p j) ((contrEquiv1 dot_S256x512_S512x3584_S256x3584_1_0_0_1_n_n 512 rfl rfl).symm k) = ix2 k j :=
    funext fun a => Fin.ext (by
      match a with
      | ⟨0, _⟩ => exact (prod_rhs_row _ _).trans hk
      | ⟨1, _⟩ => exact prod_rhs_col _ _)
  rw [el, er]

/-- The bias row, a 1×3584 vector repeated down the 256 rows, reads its column at every row. -/
theorem bias_rows_apply (b2 : Vec Ideal S1x3584 .f32) (p : Fin 256) (j : Fin 3584) :
    broadcastTo S256x3584 (shapeCast S1x3584 b2 shapeCasts_S1x3584_S1x3584) broadcasts_S1x3584_S256x3584 (ix2 p j)
      = b2 (ix2 (0 : Fin 1) j) := by
  rw [shapeCast_self]
  exact broadcastTo_apply b2 broadcasts_S1x3584_S256x3584 (ix2 p j) (ix2 (0 : Fin 1) j) (fun a => by
    match a with
    | ⟨0, _⟩ => show (0 : Nat) = if (1 : Nat) = 1 then 0 else _; rw [if_pos rfl]
    | ⟨1, _⟩ => show j.val = if (3584 : Nat) = 1 then 0 else j.val; rw [if_neg (by decide)])

/-- Entry (p, j) of the kernel's pre-activation of one block: the two half contractions and the bias. -/
theorem kernel_preact_apply (x0 x1 : Vec Ideal S256x512 .f32) (w0 w1 : Vec Ideal S512x3584 .bf16)
    (b2 : Vec Ideal S1x3584 .f32) (p : Fin 256) (j : Fin 3584) :
    Gen.k0_pay4 (F := Ideal) x0 x1 w0 w1 b2 (ix2 p j)
      = ((∑ k : Fin 512, x0 (ix2 p k) * w0 (ix2 k j)) + ∑ k : Fin 512, x1 (ix2 p k) * w1 (ix2 k j))
          + b2 (ix2 (0 : Fin 1) j) := by
  unfold Gen.k0_pay4
  show (matmul dot_S256x512_S512x3584_S256x3584_1_0_0_1_n_n none (truncf .bf16 x0 bitsLt_bf16_f32) (shapeCast S512x3584 w0 shapeCasts_S512x3584_S512x3584)
          (constant (F := Ideal) S256x3584 .f32 0x00000000#32) (ix2 p j)
        + matmul dot_S256x512_S512x3584_S256x3584_1_0_0_1_n_n none (truncf .bf16 x1 bitsLt_bf16_f32) (shapeCast S512x3584 w1 shapeCasts_S512x3584_S512x3584)
          (constant (F := Ideal) S256x3584 .f32 0x00000000#32) (ix2 p j))
      + broadcastTo S256x3584 (shapeCast S1x3584 b2 shapeCasts_S1x3584_S1x3584) broadcasts_S1x3584_S256x3584 (ix2 p j) = _
  rw [block_product_apply, block_product_apply, bias_rows_apply, shapeCast_self, shapeCast_self]
  rfl

end KernelSide

/-! ## The reference's side: the whole batch -/

section ReferenceSide

open Cert.ReferenceIdeal Cert.ReferenceIdeal.Gen Cert.ReferenceIdeal.Read

/-- Column k < 512 of the joined row [x | h] is x's column k. -/
theorem joined_left (X H : (⟨S32768x512, .f32⟩ : BufTy).Contents (Elt Ideal)) (r : Fin 32768) (k : Fin 512) :
    val_main_v0 (F := Ideal) X H (ix2 r (⟨k.val, by omega⟩ : Fin 1024)) = X (ix2 r k) := by
  unfold val_main_v0
  exact concatenate_pair_apply_left (1 : Fin 2) X H concatenates_S32768x512_S32768x512_S32768x1024_d1
    (ix2 r (⟨k.val, by omega⟩ : Fin 1024)) rfl (ix2 r k) (fun b => by
      match b with
      | ⟨0, _⟩ => rfl
      | ⟨1, _⟩ => rfl)

/-- Column 512 + k of the joined row [x | h] is h's column k. -/
theorem joined_right (X H : (⟨S32768x512, .f32⟩ : BufTy).Contents (Elt Ideal)) (r : Fin 32768) (k : Fin 512) :
    val_main_v0 (F := Ideal) X H (ix2 r (⟨512 + k.val, by omega⟩ : Fin 1024)) = H (ix2 r k) := by
  unfold val_main_v0
  exact concatenate_pair_apply_right (1 : Fin 2) X H concatenates_S32768x512_S32768x512_S32768x1024_d1
    (ix2 r (⟨512 + k.val, by omega⟩ : Fin 1024)) rfl rfl (ix2 r k)
    (fun b => by
      match b with
      | ⟨0, _⟩ => intro _; rfl
      | ⟨1, _⟩ => intro h; exact absurd rfl h)
    (by show k.val + 512 = 512 + k.val; omega)

/-- Entry (r, j) of the reference's pre-activation: its one contraction over 1024 columns, split at 512. -/
theorem reference_preact_apply (X H : (⟨S32768x512, .f32⟩ : BufTy).Contents (Elt Ideal))
    (W : (⟨S1024x3584, .f32⟩ : BufTy).Contents (Elt Ideal)) (B : (⟨S3584, .f32⟩ : BufTy).Contents (Elt Ideal))
    (r : Fin 32768) (j : Fin 3584) :
    val_main_v4 (F := Ideal) X H W B (ix2 r j)
      = ((∑ k : Fin 512, X (ix2 r k) * W (ix2 (⟨k.val, by omega⟩ : Fin 1024) j))
          + ∑ k : Fin 512, H (ix2 r k) * W (ix2 (⟨512 + k.val, by omega⟩ : Fin 1024) j))
        + B (ix1 j) := by
  rw [val_main_v4_apply, val_main_v1_apply, val_main_v3_apply, val_main_v2_apply]
  show (∑ k : Fin 1024, val_main_v0 (F := Ideal) X H (lidx_main_v1 (ix2 r j) k) * W (ridx_main_v1 (ix2 r j) k))
      + B (idx_main_v2 (idx_main_v3 (ix2 r j))) = _
  rw [sum_halves]
  have eB : idx_main_v2 (idx_main_v3 (ix2 r j)) = ix1 j := funext fun a => by
    match a with
    | ⟨0, _⟩ => rfl
  rw [eB]
  congr 1
  congr 1
  · refine Finset.sum_congr rfl fun k _ => ?_
    have e1 : lidx_main_v1 (ix2 r j) (⟨k.val, by omega⟩ : Fin 1024) = ix2 r (⟨k.val, by omega⟩ : Fin 1024) :=
      funext fun a => by
        match a with
        | ⟨0, _⟩ => rfl
        | ⟨1, _⟩ => rfl
    have e2 : ridx_main_v1 (ix2 r j) (⟨k.val, by omega⟩ : Fin 1024) = ix2 (⟨k.val, by omega⟩ : Fin 1024) j :=
      funext fun a => by
        match a with
        | ⟨0, _⟩ => rfl
        | ⟨1, _⟩ => rfl
    rw [e1, e2, joined_left]
  · refine Finset.sum_congr rfl fun k _ => ?_
    have e1 : lidx_main_v1 (ix2 r j) (⟨512 + k.val, by omega⟩ : Fin 1024) = ix2 r (⟨512 + k.val, by omega⟩ : Fin 1024) :=
      funext fun a => by
        match a with
        | ⟨0, _⟩ => rfl
        | ⟨1, _⟩ => rfl
    have e2 : ridx_main_v1 (ix2 r j) (⟨512 + k.val, by omega⟩ : Fin 1024) = ix2 (⟨512 + k.val, by omega⟩ : Fin 1024) j :=
      funext fun a => by
        match a with
        | ⟨0, _⟩ => rfl
        | ⟨1, _⟩ => rfl
    rw [e1, e2, joined_right]

end ReferenceSide

/-! ## The two sides meet -/

/-- Entry (p, j) of the kernel's pre-activation of a block is entry (r, j) of the reference's, when the block's
    row p holds row r of x and of h, the two weight operands hold the upper and the lower half of W, and the
    bias operand holds b as a row. -/
theorem preact_eq
    (X H : (⟨Cert.ReferenceIdeal.S32768x512, .f32⟩ : BufTy).Contents (Elt Ideal))
    (W : (⟨Cert.ReferenceIdeal.S1024x3584, .f32⟩ : BufTy).Contents (Elt Ideal))
    (B : (⟨Cert.ReferenceIdeal.S3584, .f32⟩ : BufTy).Contents (Elt Ideal))
    (x0 x1 : Vec Ideal Cert.KernelIdeal.S256x512 .f32) (w0 w1 : Vec Ideal Cert.KernelIdeal.S512x3584 .bf16)
    (b2 : Vec Ideal Cert.KernelIdeal.S1x3584 .f32) (r : Fin 32768) (p : Fin 256) (j : Fin 3584)
    (hx0 : ∀ k : Fin 512, x0 (ix2 p k) = X (ix2 r k))
    (hx1 : ∀ k : Fin 512, x1 (ix2 p k) = H (ix2 r k))
    (hw0 : ∀ k : Fin 512, w0 (ix2 k j) = W (ix2 (⟨k.val, by omega⟩ : Fin 1024) j))
    (hw1 : ∀ k : Fin 512, w1 (ix2 k j) = W (ix2 (⟨512 + k.val, by omega⟩ : Fin 1024) j))
    (hb : b2 (ix2 (0 : Fin 1) j) = B (ix1 j)) :
    Cert.KernelIdeal.Gen.k0_pay4 (F := Ideal) x0 x1 w0 w1 b2 (ix2 p j)
      = Cert.ReferenceIdeal.Read.val_main_v4 (F := Ideal) X H W B (ix2 r j) := by
  rw [kernel_preact_apply, reference_preact_apply, hb]
  congr 1
  congr 1
  · exact Finset.sum_congr rfl fun k _ => by rw [hx0 k, hw0 k]
  · exact Finset.sum_congr rfl fun k _ => by rw [hx1 k, hw1 k]

end Cert.Cell

end
-- ==== Proof.Gates.lean ====
/-
  The gates: one element of each of the four outputs, kernel against reference.

  Write g[r, ·] for the 3584 pre-activation columns of batch row r (Preact), cut into seven gates of 512
  columns. Both programs then compute, at (r, q) with q < 512,

      c_i          = σ(g[r, 512+q]) · c_t[r, q]        + σ(g[r, q])      · tanh(g[r, 2560+q])
      c_target_new = σ(g[r, 1536+q]) · c_target[r, q]  + σ(g[r, 1024+q]) · tanh(g[r, 2560+q])
      output       = σ(g[r, 2048+q])
      decay        = softplus(1 · g[r, 3072+q]) / 1

  where the kernel applies the logistic function σ as one operation and the reference writes it out as
  1 / (1 + e^(-·)) — the same extended real — and both spell softplus(u) as
  max(u, 0) + log(1 + e^(-|u - 0|)) under a test `u - 0 ≠ u - 0` that never fires; the kernel writes the
  exponent as 0 - |·| and the test as an ordered comparison, the reference as a negation and an unordered
  one. No step uses finiteness of the inputs.
-/
import proofs.«111469_j9715216023707_1_alg».proof.Proof.Preact
import proofs.«111469_j9715216023707_1_alg».proof.Proof.Gen.KernelIdeal.Value

noncomputable section

namespace Cert.Cell

open Idealize.ShloMosaic Idealize.ShloMosaic.ValueIdx

/-- Column `off + q` among the 3584 pre-activation columns: column `q` of the gate whose columns start at `off`. -/
abbrev gcol (off : Nat) (h : off + 512 ≤ 3584) (q : Fin 512) : Fin 3584 := ⟨off + q.val, by omega⟩

/-- softplus(1 · g) / 1 on one element as the two programs spell it (the words of 1.0 and 0.0 kept as they
    are): they differ in `0 - |d|` against `-|d|` and in the spelling of the never-true test. -/
theorem softplus_spellings (g : EReal) :
    Ideal.div
      (Scalar.select
        (Ideal.cmp .one (Ideal.ofBits .f32 0x3F800000#32 * g - Ideal.ofBits .f32 0x00000000#32)
          (Ideal.ofBits .f32 0x3F800000#32 * g - Ideal.ofBits .f32 0x00000000#32))
        (Ideal.ofBits .f32 0x3F800000#32 * g + Ideal.ofBits .f32 0x00000000#32)
        (max (Ideal.ofBits .f32 0x3F800000#32 * g) (Ideal.ofBits .f32 0x00000000#32)
          + Ideal.log1p (Ideal.exp (Ideal.ofBits .f32 0x00000000#32
              - max (Ideal.ofBits .f32 0x3F800000#32 * g - Ideal.ofBits .f32 0x00000000#32)
                  (-(Ideal.ofBits .f32 0x3F800000#32 * g - Ideal.ofBits .f32 0x00000000#32))))))
      (Ideal.ofBits .f32 0x3F800000#32)
    = Ideal.div
      (Scalar.select
        (Ideal.cmp .une (Ideal.ofBits .f32 0x3F800000#32 * g - Ideal.ofBits .f32 0x00000000#32)
          (Ideal.ofBits .f32 0x3F800000#32 * g - Ideal.ofBits .f32 0x00000000#32))
        (Ideal.ofBits .f32 0x3F800000#32 * g + Ideal.ofBits .f32 0x00000000#32)
        (max (Ideal.ofBits .f32 0x3F800000#32 * g) (Ideal.ofBits .f32 0x00000000#32)
          + Ideal.log1p (Ideal.exp
              (-(max (Ideal.ofBits .f32 0x3F800000#32 * g - Ideal.ofBits .f32 0x00000000#32)
                  (-(Ideal.ofBits .f32 0x3F800000#32 * g - Ideal.ofBits .f32 0x00000000#32)))))))
      (Ideal.ofBits .f32 0x3F800000#32) := by
  rw [zero_word_sub]
  rfl

/-! ## The reference's gates at an element -/

section ReferenceGates

open Cert.ReferenceIdeal Cert.ReferenceIdeal.Gen Cert.ReferenceIdeal.Read

/-- The reference's sigmoid of the input gate: columns 0 … 511, at (r, q): the logistic function of the pre-activation there. -/
theorem ref_input (X H : (⟨S32768x512, .f32⟩ : BufTy).Contents (Elt Ideal)) (W : (⟨S1024x3584, .f32⟩ : BufTy).Contents (Elt Ideal)) (B : (⟨S3584, .f32⟩ : BufTy).Contents (Elt Ideal)) (r : Fin 32768) (q : Fin 512) :
    val_main_v17 (F := Ideal) X H W B (ix2 r q)
      = Ideal.logistic (val_main_v4 (F := Ideal) X H W B (ix2 r (gcol 0 (by decide) q))) := by
  rw [val_main_v17_apply, val_main_v16_apply, val_main_cst_0_apply, val_main_v15_apply, val_main_v14_apply,
    val_main_cst_apply, val_main_v13_apply, val_main_v12_apply, val_main_v5_apply]
  have e : idx_main_v5 (ix2 r q) = ix2 r (gcol 0 (by decide) q) := funext fun a => Fin.ext (by
    match a with
    | ⟨0, _⟩ => rfl
    | ⟨1, _⟩ => show q.val = 0 + q.val; omega)
  rw [e]
  exact logistic_quotient _

/-- The reference's sigmoid of the forget gate: columns 512 … 1023, at (r, q): the logistic function of the pre-activation there. -/
theorem ref_forget (X H : (⟨S32768x512, .f32⟩ : BufTy).Contents (Elt Ideal)) (W : (⟨S1024x3584, .f32⟩ : BufTy).Contents (Elt Ideal)) (B : (⟨S3584, .f32⟩ : BufTy).Contents (Elt Ideal)) (r : Fin 32768) (q : Fin 512) :
    val_main_v23 (F := Ideal) X H W B (ix2 r q)
      = Ideal.logistic (val_main_v4 (F := Ideal) X H W B (ix2 r (gcol 512 (by decide) q))) := by
  rw [val_main_v23_apply, val_main_v22_apply, val_main_cst_2_apply, val_main_v21_apply, val_main_v20_apply,
    val_main_cst_1_apply, val_main_v19_apply, val_main_v18_apply, val_main_v6_apply]
  have e : idx_main_v6 (ix2 r q) = ix2 r (gcol 512 (by decide) q) := funext fun a => Fin.ext (by
    match a with
    | ⟨0, _⟩ => rfl
    | ⟨1, _⟩ => show 512 + q.val = 512 + q.val; omega)
  rw [e]
  exact logistic_quotient _

/-- The reference's sigmoid of the target's input gate: columns 1024 … 1535, at (r, q): the logistic function of the pre-activation there. -/
theorem ref_input_target (X H : (⟨S32768x512, .f32⟩ : BufTy).Contents (Elt Ideal)) (W : (⟨S1024x3584, .f32⟩ : BufTy).Contents (Elt Ideal)) (B : (⟨S3584, .f32⟩ : BufTy).Contents (Elt Ideal)) (r : Fin 32768) (q : Fin 512) :
    val_main_v29 (F := Ideal) X H W B (ix2 r q)
      = Ideal.logistic (val_main_v4 (F := Ideal) X H W B (ix2 r (gcol 1024 (by decide) q))) := by
  rw [val_main_v29_apply, val_main_v28_apply, val_main_cst_4_apply, val_main_v27_apply, val_main_v26_apply,
    val_main_cst_3_apply, val_main_v25_apply, val_main_v24_apply, val_main_v7_apply]
  have e : idx_main_v7 (ix2 r q) = ix2 r (gcol 1024 (by decide) q) := funext fun a => Fin.ext (by
    match a with
    | ⟨0, _⟩ => rfl
    | ⟨1, _⟩ => show 1024 + q.val = 1024 + q.val; omega)
  rw [e]
  exact logistic_quotient _

/-- The reference's sigmoid of the target's forget gate: columns 1536 … 2047, at (r, q): the logistic function of the pre-activation there. -/
theorem ref_forget_target (X H : (⟨S32768x512, .f32⟩ : BufTy).Contents (Elt Ideal)) (W : (⟨S1024x3584, .f32⟩ : BufTy).Contents (Elt Ideal)) (B : (⟨S3584, .f32⟩ : BufTy).Contents (Elt Ideal)) (r : Fin 32768) (q : Fin 512) :
    val_main_v35 (F := Ideal) X H W B (ix2 r q)
      = Ideal.logistic (val_main_v4 (F := Ideal) X H W B (ix2 r (gcol 1536 (by decide) q))) := by
  rw [val_main_v35_apply, val_main_v34_apply, val_main_cst_6_apply, val_main_v33_apply, val_main_v32_apply,
    val_main_cst_5_apply, val_main_v31_apply, val_main_v30_apply, val_main_v8_apply]
  have e : idx_main_v8 (ix2 r q) = ix2 r (gcol 1536 (by decide) q) := funext fun a => Fin.ext (by
    match a with
    | ⟨0, _⟩ => rfl
    | ⟨1, _⟩ => show 1536 + q.val = 1536 + q.val; omega)
  rw [e]
  exact logistic_quotient _

/-- The reference's sigmoid of the output gate: columns 2048 … 2559, at (r, q): the logistic function of the pre-activation there. -/
theorem ref_output (X H : (⟨S32768x512, .f32⟩ : BufTy).Contents (Elt Ideal)) (W : (⟨S1024x3584, .f32⟩ : BufTy).Contents (Elt Ideal)) (B : (⟨S3584, .f32⟩ : BufTy).Contents (Elt Ideal)) (r : Fin 32768) (q : Fin 512) :
    val_main_v41 (F := Ideal) X H W B (ix2 r q)
      = Ideal.logistic (val_main_v4 (F := Ideal) X H W B (ix2 r (gcol 2048 (by decide) q))) := by
  rw [val_main_v41_apply, val_main_v40_apply, val_main_cst_8_apply, val_main_v39_apply, val_main_v38_apply,
    val_main_cst_7_apply, val_main_v37_apply, val_main_v36_apply, val_main_v9_apply]
  have e : idx_main_v9 (ix2 r q) = ix2 r (gcol 2048 (by decide) q) := funext fun a => Fin.ext (by
    match a with
    | ⟨0, _⟩ => rfl
    | ⟨1, _⟩ => show 2048 + q.val = 2048 + q.val; omega)
  rw [e]
  exact logistic_quotient _

/-- The reference's candidate value, columns 2560 … 3071, at (r, q): tanh of the pre-activation there. -/
theorem ref_candidate (X H : (⟨S32768x512, .f32⟩ : BufTy).Contents (Elt Ideal)) (W : (⟨S1024x3584, .f32⟩ : BufTy).Contents (Elt Ideal)) (B : (⟨S3584, .f32⟩ : BufTy).Contents (Elt Ideal)) (r : Fin 32768) (q : Fin 512) :
    val_main_v42 (F := Ideal) X H W B (ix2 r q)
      = Ideal.tanh (val_main_v4 (F := Ideal) X H W B (ix2 r (gcol 2560 (by decide) q))) := by
  rw [val_main_v42_apply, val_main_v10_apply]
  have e : idx_main_v10 (ix2 r q) = ix2 r (gcol 2560 (by decide) q) := funext fun a => Fin.ext (by
    match a with
    | ⟨0, _⟩ => rfl
    | ⟨1, _⟩ => show 2560 + q.val = 2560 + q.val; omega)
  rw [e]
  rfl

/-- The reference's decay, columns 3072 … 3583, at (r, q): its spelling of softplus(1 · g) / 1. -/
theorem ref_decay (X H : (⟨S32768x512, .f32⟩ : BufTy).Contents (Elt Ideal)) (W : (⟨S1024x3584, .f32⟩ : BufTy).Contents (Elt Ideal)) (B : (⟨S3584, .f32⟩ : BufTy).Contents (Elt Ideal)) (r : Fin 32768) (q : Fin 512) :
    val_main_v47 (F := Ideal) X H W B (ix2 r q)
      = Ideal.div
        (Scalar.select
          (Ideal.cmp .une
            (Ideal.ofBits .f32 0x3F800000#32 * val_main_v4 (F := Ideal) X H W B (ix2 r (gcol 3072 (by decide) q)) - Ideal.ofBits .f32 0x00000000#32)
            (Ideal.ofBits .f32 0x3F800000#32 * val_main_v4 (F := Ideal) X H W B (ix2 r (gcol 3072 (by decide) q)) - Ideal.ofBits .f32 0x00000000#32))
          (Ideal.ofBits .f32 0x3F800000#32 * val_main_v4 (F := Ideal) X H W B (ix2 r (gcol 3072 (by decide) q)) + Ideal.ofBits .f32 0x00000000#32)
          (max (Ideal.ofBits .f32 0x3F800000#32 * val_main_v4 (F := Ideal) X H W B (ix2 r (gcol 3072 (by decide) q))) (Ideal.ofBits .f32 0x00000000#32)
            + Ideal.log1p (Ideal.exp
                (-(max (Ideal.ofBits .f32 0x3F800000#32 * val_main_v4 (F := Ideal) X H W B (ix2 r (gcol 3072 (by decide) q)) - Ideal.ofBits .f32 0x00000000#32)
                    (-(Ideal.ofBits .f32 0x3F800000#32 * val_main_v4 (F := Ideal) X H W B (ix2 r (gcol 3072 (by decide) q)) - Ideal.ofBits .f32 0x00000000#32)))))))
        (Ideal.ofBits .f32 0x3F800000#32) := by
  rw [val_main_v47_apply, val_main_v46_apply, val_main_cst_10_apply, val_main_v45_apply, val_main_call0_v4_apply,
    val_main_call0_v6_apply, val_main_call0_v5_apply, val_main_call0_v11_apply, val_main_call0_v1_apply,
    val_main_call0_v0_apply, val_main_call0_v10_apply, val_main_call0_v9_apply, val_main_call0_v8_apply,
    val_main_call0_v7_apply, val_main_call0_v3_apply, val_main_call0_v2_apply, val_main_call0_cst_apply,
    val_main_v44_apply, val_main_v43_apply, val_main_cst_9_apply, val_main_v11_apply]
  have e : idx_main_v11 (ix2 r q) = ix2 r (gcol 3072 (by decide) q) := funext fun a => Fin.ext (by
    match a with
    | ⟨0, _⟩ => rfl
    | ⟨1, _⟩ => show 3072 + q.val = 3072 + q.val; omega)
  rw [e]
  rfl

end ReferenceGates

/-! ## The kernel's blocks at an element -/

section KernelGates

open Cert.KernelIdeal Cert.KernelIdeal.Gen

/-- The block the kernel leaves for c_i, at (p, q), over the block's pre-activation. -/
theorem ker_ci (P0 P1 : Vec Ideal S256x512 .f32) (P2 P3 : Vec Ideal S512x3584 .bf16) (P4 : Vec Ideal S1x3584 .f32) (P5 : Vec Ideal S256x512 .f32) (p : Fin 256) (q : Fin 512) :
    Value.E7 (F := Ideal) P0 P1 P2 P3 P4 P5 (ix2 p q)
      = Ideal.logistic (Gen.k0_pay4 (F := Ideal) P0 P1 P2 P3 P4 (ix2 p (gcol 512 (by decide) q))) * P5 (ix2 p q)
        + Ideal.logistic (Gen.k0_pay4 (F := Ideal) P0 P1 P2 P3 P4 (ix2 p (gcol 0 (by decide) q)))
          * Ideal.tanh (Gen.k0_pay4 (F := Ideal) P0 P1 P2 P3 P4 (ix2 p (gcol 2560 (by decide) q))) := by
  have e0 : Value.ix7_0 (ix2 p q) = ix2 p (gcol 512 (by decide) q) := funext fun a => Fin.ext (by
    match a with
    | ⟨0, _⟩ => rfl
    | ⟨1, _⟩ => show q.val + 512 = 512 + q.val; omega)
  have e1 : Value.ix7_1 (ix2 p q) = ix2 p q := funext fun a => Fin.ext (by
    match a with
    | ⟨0, _⟩ => rfl
    | ⟨1, _⟩ => rfl)
  have e2 : Value.ix7_2 (ix2 p q) = ix2 p (gcol 0 (by decide) q) := funext fun a => Fin.ext (by
    match a with
    | ⟨0, _⟩ => rfl
    | ⟨1, _⟩ => show q.val = 0 + q.val; omega)
  have e3 : Value.ix7_3 (ix2 p q) = ix2 p (gcol 2560 (by decide) q) := funext fun a => Fin.ext (by
    match a with
    | ⟨0, _⟩ => rfl
    | ⟨1, _⟩ => show q.val + 2560 = 2560 + q.val; omega)
  show FloatOps.addf
      (FloatOps.mulf (FloatOps.logistic (Gen.k0_pay4 (F := Ideal) P0 P1 P2 P3 P4 (Value.ix7_0 (ix2 p q)))) (P5 (Value.ix7_1 (ix2 p q))))
      (FloatOps.mulf (FloatOps.logistic (Gen.k0_pay4 (F := Ideal) P0 P1 P2 P3 P4 (Value.ix7_2 (ix2 p q))))
        (FloatOps.tanh (Gen.k0_pay4 (F := Ideal) P0 P1 P2 P3 P4 (Value.ix7_3 (ix2 p q))))) = _
  rw [e0, e1, e2, e3]
  rfl

/-- The block the kernel leaves for c_target_new, at (p, q), over the block's pre-activation. -/
theorem ker_ctarget (P0 P1 : Vec Ideal S256x512 .f32) (P2 P3 : Vec Ideal S512x3584 .bf16) (P4 : Vec Ideal S1x3584 .f32) (P5 : Vec Ideal S256x512 .f32) (p : Fin 256) (q : Fin 512) :
    Value.E8 (F := Ideal) P0 P1 P2 P3 P4 P5 (ix2 p q)
      = Ideal.logistic (Gen.k0_pay4 (F := Ideal) P0 P1 P2 P3 P4 (ix2 p (gcol 1536 (by decide) q))) * P5 (ix2 p q)
        + Ideal.logistic (Gen.k0_pay4 (F := Ideal) P0 P1 P2 P3 P4 (ix2 p (gcol 1024 (by decide) q)))
          * Ideal.tanh (Gen.k0_pay4 (F := Ideal) P0 P1 P2 P3 P4 (ix2 p (gcol 2560 (by decide) q))) := by
  have e0 : Value.ix8_0 (ix2 p q) = ix2 p (gcol 1536 (by decide) q) := funext fun a => Fin.ext (by
    match a with
    | ⟨0, _⟩ => rfl
    | ⟨1, _⟩ => show q.val + 1536 = 1536 + q.val; omega)
  have e1 : Value.ix8_1 (ix2 p q) = ix2 p q := funext fun a => Fin.ext (by
    match a with
    | ⟨0, _⟩ => rfl
    | ⟨1, _⟩ => rfl)
  have e2 : Value.ix8_2 (ix2 p q) = ix2 p (gcol 1024 (by decide) q) := funext fun a => Fin.ext (by
    match a with
    | ⟨0, _⟩ => rfl
    | ⟨1, _⟩ => show q.val + 1024 = 1024 + q.val; omega)
  have e3 : Value.ix8_3 (ix2 p q) = ix2 p (gcol 2560 (by decide) q) := funext fun a => Fin.ext (by
    match a with
    | ⟨0, _⟩ => rfl
    | ⟨1, _⟩ => show q.val + 2560 = 2560 + q.val; omega)
  show FloatOps.addf
      (FloatOps.mulf (FloatOps.logistic (Gen.k0_pay4 (F := Ideal) P0 P1 P2 P3 P4 (Value.ix8_0 (ix2 p q)))) (P5 (Value.ix8_1 (ix2 p q))))
      (FloatOps.mulf (FloatOps.logistic (Gen.k0_pay4 (F := Ideal) P0 P1 P2 P3 P4 (Value.ix8_2 (ix2 p q))))
        (FloatOps.tanh (Gen.k0_pay4 (F := Ideal) P0 P1 P2 P3 P4 (Value.ix8_3 (ix2 p q))))) = _
  rw [e0, e1, e2, e3]
  rfl

/-- The block the kernel leaves for the output gate, at (p, q), over the block's pre-activation. -/
theorem ker_output (P0 P1 : Vec Ideal S256x512 .f32) (P2 P3 : Vec Ideal S512x3584 .bf16) (P4 : Vec Ideal S1x3584 .f32) (p : Fin 256) (q : Fin 512) :
    Value.E9 (F := Ideal) P0 P1 P2 P3 P4 (ix2 p q)
      = Ideal.logistic (Gen.k0_pay4 (F := Ideal) P0 P1 P2 P3 P4 (ix2 p (gcol 2048 (by decide) q))) := by
  have e0 : Value.ix9_0 (ix2 p q) = ix2 p (gcol 2048 (by decide) q) := funext fun a => Fin.ext (by
    match a with
    | ⟨0, _⟩ => rfl
    | ⟨1, _⟩ => show q.val + 2048 = 2048 + q.val; omega)
  show FloatOps.logistic (Gen.k0_pay4 (F := Ideal) P0 P1 P2 P3 P4 (Value.ix9_0 (ix2 p q))) = _
  rw [e0]
  rfl

/-- Columns 3072 … 3583 of the block's pre-activation, cut out as the seventh gate, at (p, q). -/
theorem ker_decay_cols (P0 P1 : Vec Ideal S256x512 .f32) (P2 P3 : Vec Ideal S512x3584 .bf16) (P4 : Vec Ideal S1x3584 .f32) (p : Fin 256) (q : Fin 512) :
    extractStridedSlice S256x512 ![0, 3072] (Gen.k0_pay4 (F := Ideal) P0 P1 P2 P3 P4) slices_S256x3584_o0_3072_S256x512 (ix2 p q)
      = Gen.k0_pay4 (F := Ideal) P0 P1 P2 P3 P4 (ix2 p (gcol 3072 (by decide) q)) :=
  extractStridedSlice_apply ![0, 3072] _ slices_S256x3584_o0_3072_S256x512 (ix2 p q) (ix2 p (gcol 3072 (by decide) q)) (fun a => by
    match a with
    | ⟨0, _⟩ => show p.val = 0 + p.val; omega
    | ⟨1, _⟩ => rfl)

/-- The block the kernel leaves for the decay, at (p, q): its spelling of softplus(1 · g) / 1 over the block's
    pre-activation. -/
theorem ker_decay (P0 P1 : Vec Ideal S256x512 .f32) (P2 P3 : Vec Ideal S512x3584 .bf16) (P4 : Vec Ideal S1x3584 .f32) (p : Fin 256) (q : Fin 512) :
    Gen.k0_pay1 (F := Ideal) (Gen.k0_pay12 P0 P1 P2 P3 P4) (Gen.k0_pay14 P0 P1 P2 P3 P4) (Gen.k0_pay15 P0 P1 P2 P3 P4)
        (Gen.k0_pay16 P0 P1 P2 P3 P4) (Scalar.ofBits .f32 0x00000000#32) (ix2 p q)
      = Ideal.div
        (Scalar.select
          (Ideal.cmp .one
            (Ideal.ofBits .f32 0x3F800000#32 * Gen.k0_pay4 (F := Ideal) P0 P1 P2 P3 P4 (ix2 p (gcol 3072 (by decide) q)) - Ideal.ofBits .f32 0x00000000#32)
            (Ideal.ofBits .f32 0x3F800000#32 * Gen.k0_pay4 (F := Ideal) P0 P1 P2 P3 P4 (ix2 p (gcol 3072 (by decide) q)) - Ideal.ofBits .f32 0x00000000#32))
          (Ideal.ofBits .f32 0x3F800000#32 * Gen.k0_pay4 (F := Ideal) P0 P1 P2 P3 P4 (ix2 p (gcol 3072 (by decide) q)) + Ideal.ofBits .f32 0x00000000#32)
          (max (Ideal.ofBits .f32 0x3F800000#32 * Gen.k0_pay4 (F := Ideal) P0 P1 P2 P3 P4 (ix2 p (gcol 3072 (by decide) q))) (Ideal.ofBits .f32 0x00000000#32)
            + Ideal.log1p (Ideal.exp (Ideal.ofBits .f32 0x00000000#32
                - max (Ideal.ofBits .f32 0x3F800000#32 * Gen.k0_pay4 (F := Ideal) P0 P1 P2 P3 P4 (ix2 p (gcol 3072 (by decide) q)) - Ideal.ofBits .f32 0x00000000#32)
                    (-(Ideal.ofBits .f32 0x3F800000#32 * Gen.k0_pay4 (F := Ideal) P0 P1 P2 P3 P4 (ix2 p (gcol 3072 (by decide) q)) - Ideal.ofBits .f32 0x00000000#32))))))
        (Ideal.ofBits .f32 0x3F800000#32) := by
  rw [← ker_decay_cols]
  rfl

end KernelGates

/-! ## Kernel against reference, element by element -/

section Meet

variable (X H : (⟨Cert.ReferenceIdeal.S32768x512, .f32⟩ : BufTy).Contents (Elt Ideal))
  (W : (⟨Cert.ReferenceIdeal.S1024x3584, .f32⟩ : BufTy).Contents (Elt Ideal))
  (B : (⟨Cert.ReferenceIdeal.S3584, .f32⟩ : BufTy).Contents (Elt Ideal))
  (P0 P1 : Vec Ideal Cert.KernelIdeal.S256x512 .f32) (P2 P3 : Vec Ideal Cert.KernelIdeal.S512x3584 .bf16)
  (P4 : Vec Ideal Cert.KernelIdeal.S1x3584 .f32) (r : Fin 32768) (p : Fin 256)

open Cert.KernelIdeal Cert.ReferenceIdeal.Read in
/-- c_i: the kernel's block element is the reference's, when the block's pre-activation row p is the reference's
    row r and the block's c_t element is c_t[r, q]. -/
theorem ci_elem (C : (⟨Cert.ReferenceIdeal.S32768x512, .f32⟩ : BufTy).Contents (Elt Ideal))
    (P5 : Vec Ideal Cert.KernelIdeal.S256x512 .f32) (q : Fin 512)
    (hg : ∀ j : Fin 3584, Gen.k0_pay4 (F := Ideal) P0 P1 P2 P3 P4 (ix2 p j) = val_main_v4 (F := Ideal) X H W B (ix2 r j))
    (hc : P5 (ix2 p q) = C (ix2 r q)) :
    Value.E7 (F := Ideal) P0 P1 P2 P3 P4 P5 (ix2 p q) = val_main_v50 (F := Ideal) X H C W B (ix2 r q) := by
  rw [ker_ci, hg, hg, hg, hc, val_main_v50_apply, val_main_v48_apply, val_main_v49_apply, ref_forget, ref_input, ref_candidate]
  rfl

open Cert.KernelIdeal Cert.ReferenceIdeal.Read in
/-- c_target_new: likewise, with the block's c_target element c_target[r, q]. -/
theorem ctarget_elem (C : (⟨Cert.ReferenceIdeal.S32768x512, .f32⟩ : BufTy).Contents (Elt Ideal))
    (P5 : Vec Ideal Cert.KernelIdeal.S256x512 .f32) (q : Fin 512)
    (hg : ∀ j : Fin 3584, Gen.k0_pay4 (F := Ideal) P0 P1 P2 P3 P4 (ix2 p j) = val_main_v4 (F := Ideal) X H W B (ix2 r j))
    (hc : P5 (ix2 p q) = C (ix2 r q)) :
    Value.E8 (F := Ideal) P0 P1 P2 P3 P4 P5 (ix2 p q) = val_main_v53 (F := Ideal) X H C W B (ix2 r q) := by
  rw [ker_ctarget, hg, hg, hg, hc, val_main_v53_apply, val_main_v51_apply, val_main_v52_apply, ref_forget_target,
    ref_input_target, ref_candidate]
  rfl

open Cert.KernelIdeal Cert.ReferenceIdeal.Read in
/-- The output gate. -/
theorem output_elem (q : Fin 512)
    (hg : ∀ j : Fin 3584, Gen.k0_pay4 (F := Ideal) P0 P1 P2 P3 P4 (ix2 p j) = val_main_v4 (F := Ideal) X H W B (ix2 r j)) :
    Value.E9 (F := Ideal) P0 P1 P2 P3 P4 (ix2 p q) = val_main_v41 (F := Ideal) X H W B (ix2 r q) := by
  rw [ker_output, hg, ref_output]

open Cert.KernelIdeal Cert.ReferenceIdeal.Read in
/-- The decay: the two spellings of softplus(1 · g) / 1 of one pre-activation element. -/
theorem decay_elem (q : Fin 512)
    (hg : ∀ j : Fin 3584, Gen.k0_pay4 (F := Ideal) P0 P1 P2 P3 P4 (ix2 p j) = val_main_v4 (F := Ideal) X H W B (ix2 r j)) :
    Gen.k0_pay1 (F := Ideal) (Gen.k0_pay12 P0 P1 P2 P3 P4) (Gen.k0_pay14 P0 P1 P2 P3 P4) (Gen.k0_pay15 P0 P1 P2 P3 P4)
        (Gen.k0_pay16 P0 P1 P2 P3 P4) (Scalar.ofBits .f32 0x00000000#32) (ix2 p q)
      = val_main_v47 (F := Ideal) X H W B (ix2 r q) := by
  rw [ker_decay, hg, ref_decay]
  exact softplus_spellings _

end Meet

end Cert.Cell

end
-- ==== Proof.Blocks.lean ====
/-
  From blocks to arrays: each output array of the kernel, after the run, as one function of the arguments.

  The grid has 128 points; point t stages rows 256·t … 256·t + 255 of x, h_t, c_t and c_target, the whole of
  the two weight halves and of the bias row, and writes back the same 256 rows of each of the four outputs.
  The weight halves and the bias row are computed before the launch: the upper and the lower 512 rows of W
  (narrowed, which changes nothing on the extended reals) and b laid out as one row. So the block of an
  output that point t writes back is rows 256·t … of the whole array the reference computes (Preact for the
  gate inputs, Gates for the gates), the 128 blocks cover the 32768 rows, and the array ends equal to the
  reference's.
-/
import proofs.«111469_j9715216023707_1_alg».proof.Proof.Gates
import Idealize.ShloMosaic.Lib.StableHlo.Run
import Idealize.ShloMosaic.Lib.Pipeline.Value

noncomputable section

namespace Cert.Cell

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-! ## The arguments as launched -/

/-- x, h_t, c_t, c_target, W and b on core c as launched. -/
abbrev argX (c : Dev nD) : S32768x512.Idx → EReal := m ((c : Thread nD τ).loc main_arg0)
abbrev argH (c : Dev nD) : S32768x512.Idx → EReal := m ((c : Thread nD τ).loc main_arg1)
abbrev argC (c : Dev nD) : S32768x512.Idx → EReal := m ((c : Thread nD τ).loc main_arg2)
abbrev argT (c : Dev nD) : S32768x512.Idx → EReal := m ((c : Thread nD τ).loc main_arg3)
abbrev argW (c : Dev nD) : S1024x3584.Idx → EReal := m ((c : Thread nD τ).loc main_arg4)
abbrev argB (c : Dev nD) : S3584.Idx → EReal := m ((c : Thread nD τ).loc main_arg5)

/-! ## Which rows a grid point touches -/

/-- Row p of the blocks at grid point t is batch row 256·t + p. -/
def brow (t : Fin cfg0.N) (p : Fin 256) : Fin 32768 :=
  ⟨256 * t.val + p.val, by have ht : t.val < 128 := lt_of_lt_of_eq t.isLt N_0; omega⟩

theorem brow_val (t : Fin cfg0.N) (p : Fin 256) : (brow t p).val = 256 * t.val + p.val := rfl

/-- The row-blocked operands (the four batch inputs and the four outputs) sit at block (t, 0) at point t. -/
theorem row_blocks : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- The two weight halves and the bias row are staged whole, at block (0, 0), at every point. -/
theorem whole_blocks : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-! ## What the staged blocks hold -/

/-- The block of x at grid point t holds batch rows 256·t … 256·t + 255. -/
theorem x_block_apply (c : Dev nD) (t : Fin cfg0.N) (p : Fin 256) (k : Fin 512) :
    (iblk m c 0 t : Vec Ideal S256x512 .f32) (ix2 p k) = argX m c (ix2 (brow t p) k) := by
  have hi := (row_blocks t).1
  unfold iblk
  rw [View.read_apply]
  show V m c main_arg0 _ = _
  refine (congrFun (V_main_arg0 m c) _).trans ?_
  refine congrArg (m ((c : Thread nD τ).loc main_arg0)) (funext fun a => Fin.ext ?_)
  match a with
  | ⟨0, _⟩ => show win0_0.index t (0 : Fin 2) * 256 + 1 * p.val = 256 * t.val + p.val; rw [hi.1]; omega
  | ⟨1, _⟩ => show win0_0.index t (1 : Fin 2) * 512 + 1 * k.val = k.val; rw [hi.2]; omega

/-- The block of h_t at grid point t holds batch rows 256·t … 256·t + 255. -/
theorem ht_block_apply (c : Dev nD) (t : Fin cfg0.N) (p : Fin 256) (k : Fin 512) :
    (iblk m c 1 t : Vec Ideal S256x512 .f32) (ix2 p k) = argH m c (ix2 (brow t p) k) := by
  have hi := (row_blocks t).2.1
  unfold iblk
  rw [View.read_apply]
  show V m c main_arg1 _ = _
  refine (congrFun (V_main_arg1 m c) _).trans ?_
  refine congrArg (m ((c : Thread nD τ).loc main_arg1)) (funext fun a => Fin.ext ?_)
  match a with
  | ⟨0, _⟩ => show win0_1.index t (0 : Fin 2) * 256 + 1 * p.val = 256 * t.val + p.val; rw [hi.1]; omega
  | ⟨1, _⟩ => show win0_1.index t (1 : Fin 2) * 512 + 1 * k.val = k.val; rw [hi.2]; omega

/-- The block of c_t at grid point t holds batch rows 256·t … 256·t + 255. -/
theorem ct_block_apply (c : Dev nD) (t : Fin cfg0.N) (p : Fin 256) (k : Fin 512) :
    (iblk m c 2 t : Vec Ideal S256x512 .f32) (ix2 p k) = argC m c (ix2 (brow t p) k) := by
  have hi := (row_blocks t).2.2.1
  unfold iblk
  rw [View.read_apply]
  show V m c main_arg2 _ = _
  refine (congrFun (V_main_arg2 m c) _).trans ?_
  refine congrArg (m ((c : Thread nD τ).loc main_arg2)) (funext fun a => Fin.ext ?_)
  match a with
  | ⟨0, _⟩ => show win0_2.index t (0 : Fin 2) * 256 + 1 * p.val = 256 * t.val + p.val; rw [hi.1]; omega
  | ⟨1, _⟩ => show win0_2.index t (1 : Fin 2) * 512 + 1 * k.val = k.val; rw [hi.2]; omega

/-- The block of c_target at grid point t holds batch rows 256·t … 256·t + 255. -/
theorem ctarget_block_apply (c : Dev nD) (t : Fin cfg0.N) (p : Fin 256) (k : Fin 512) :
    (iblk m c 3 t : Vec Ideal S256x512 .f32) (ix2 p k) = argT m c (ix2 (brow t p) k) := by
  have hi := (row_blocks t).2.2.2.1
  unfold iblk
  rw [View.read_apply]
  show V m c main_arg3 _ = _
  refine (congrFun (V_main_arg3 m c) _).trans ?_
  refine congrArg (m ((c : Thread nD τ).loc main_arg3)) (funext fun a => Fin.ext ?_)
  match a with
  | ⟨0, _⟩ => show win0_3.index t (0 : Fin 2) * 256 + 1 * p.val = 256 * t.val + p.val; rw [hi.1]; omega
  | ⟨1, _⟩ => show win0_3.index t (1 : Fin 2) * 512 + 1 * k.val = k.val; rw [hi.2]; omega

/-- The first weight operand as the launch finds it: the upper 512 rows of W, narrowed. -/
theorem upper_weights (c : Dev nD) :
    @Eq (S512x3584.Idx → EReal) (V m c main_v1)
      (truncf (F := Ideal) .bf16 (extractStridedSlice S512x3584 ![0, 0] (argW m c) slices_S1024x3584_S512x3584_0_0) bitsLt_bf16_f32) := by
  dsimp only [V, hostOps0]
  after_results

/-- The second weight operand as the launch finds it: the lower 512 rows of W, narrowed. -/
theorem lower_weights (c : Dev nD) :
    @Eq (S512x3584.Idx → EReal) (V m c main_v3)
      (truncf (F := Ideal) .bf16 (extractStridedSlice S512x3584 ![512, 0] (argW m c) slices_S1024x3584_S512x3584_512_0) bitsLt_bf16_f32) := by
  dsimp only [V, hostOps0]
  after_results

/-- The bias operand as the launch finds it: b laid out as one row. -/
theorem bias_row (c : Dev nD) :
    (V m c main_v4 : S1x3584.Idx → EReal) = shapeCast S1x3584 (argB m c) shapeCasts_S3584_S1x3584 := by
  dsimp only [V, hostOps0]
  after_results
  rfl

/-- The staged first weight operand at (k, j) is W[k, j]. -/
theorem upper_block_apply (c : Dev nD) (t : Fin cfg0.N) (k : Fin 512) (j : Fin 3584) :
    (iblk m c 4 t : Vec Ideal S512x3584 .bf16) (ix2 k j) = argW m c (ix2 (⟨k.val, by omega⟩ : Fin 1024) j) := by
  have hi := (whole_blocks t).1
  unfold iblk
  rw [View.read_apply]
  show (V m c main_v1 : S512x3584.Idx → EReal) _ = _
  rw [upper_weights, truncf_apply]
  refine extractStridedSlice_apply ![0, 0] (argW m c) slices_S1024x3584_S512x3584_0_0 _ (ix2 (⟨k.val, by omega⟩ : Fin 1024) j) (fun a => ?_)
  match a with
  | ⟨0, _⟩ => show k.val = 0 + (win0_4.index t (0 : Fin 2) * 512 + 1 * k.val); rw [hi.1]; omega
  | ⟨1, _⟩ => show j.val = 0 + (win0_4.index t (1 : Fin 2) * 3584 + 1 * j.val); rw [hi.2]; omega

/-- The staged second weight operand at (k, j) is W[512 + k, j]. -/
theorem lower_block_apply (c : Dev nD) (t : Fin cfg0.N) (k : Fin 512) (j : Fin 3584) :
    (iblk m c 5 t : Vec Ideal S512x3584 .bf16) (ix2 k j) = argW m c (ix2 (⟨512 + k.val, by omega⟩ : Fin 1024) j) := by
  have hi := (whole_blocks t).2.1
  unfold iblk
  rw [View.read_apply]
  show (V m c main_v3 : S512x3584.Idx → EReal) _ = _
  rw [lower_weights, truncf_apply]
  refine extractStridedSlice_apply ![512, 0] (argW m c) slices_S1024x3584_S512x3584_512_0 _ (ix2 (⟨512 + k.val, by omega⟩ : Fin 1024) j) (fun a => ?_)
  match a with
  | ⟨0, _⟩ => show 512 + k.val = 512 + (win0_5.index t (0 : Fin 2) * 512 + 1 * k.val); rw [hi.1]; omega
  | ⟨1, _⟩ => show j.val = 0 + (win0_5.index t (1 : Fin 2) * 3584 + 1 * j.val); rw [hi.2]; omega

/-- The staged bias row at (0, j) is b[j]. -/
theorem bias_block_apply (c : Dev nD) (t : Fin cfg0.N) (j : Fin 3584) :
    (iblk m c 6 t : Vec Ideal S1x3584 .f32) (ix2 (0 : Fin 1) j) = argB m c (ix1 j) := by
  have hi := (whole_blocks t).2.2
  unfold iblk
  rw [View.read_apply]
  show (V m c main_v4 : S1x3584.Idx → EReal) _ = _
  rw [bias_row]
  refine shapeCast_apply (argB m c) shapeCasts_S3584_S1x3584 _ (ix1 j) ?_
  rw [Shape.rowMajor_val_one, Shape.rowMajor_val_two]
  show j.val = (win0_6.index t (0 : Fin 2) * 1 + 1 * 0) * 3584 + (win0_6.index t (1 : Fin 2) * 3584 + 1 * j.val)
  rw [hi.1, hi.2]
  omega

/-- So the pre-activation the kernel computes from the blocks at point t, in its row p, is the reference's
    row 256·t + p. -/
theorem block_preact (c : Dev nD) (t : Fin cfg0.N) (p : Fin 256) (j : Fin 3584) :
    k0_pay4 (F := Ideal) (iblk m c 0 t) (iblk m c 1 t) (iblk m c 4 t) (iblk m c 5 t) (iblk m c 6 t) (ix2 p j)
      = Cert.ReferenceIdeal.Read.val_main_v4 (F := Ideal) (argX m c) (argH m c) (argW m c) (argB m c) (ix2 (brow t p) j) :=
  preact_eq (argX m c) (argH m c) (argW m c) (argB m c) (iblk m c 0 t) (iblk m c 1 t) (iblk m c 4 t) (iblk m c 5 t) (iblk m c 6 t) (brow t p) p j
    (fun k => x_block_apply m c t p k) (fun k => ht_block_apply m c t p k)
    (fun k => upper_block_apply m c t k j) (fun k => lower_block_apply m c t k j) (bias_block_apply m c t j)

/-! ## c_i (output window 7) -/

/-- The whole c_i array the reference computes from the arguments as launched. -/
abbrev whole_ci (c : Dev nD) : S32768x512.Idx → EReal :=
  Cert.ReferenceIdeal.Read.val_main_v50 (F := Ideal) (argX m c) (argH m c) (argC m c) (argW m c) (argB m c)

/-- What grid point t writes back for c_i is rows 256·t … 256·t + 255 of that array. -/
theorem ci_flushed (c : Dev nD) (t : Fin cfg0.N) :
    (dats m 0 c).flushed 7 t = ((cfg0.win 7).blk t).view.read (Elt Ideal) (whole_ci m c) := by
  have hi := (row_blocks t).2.2.2.2.1
  show (cfg0.win 7).cut (grid0.coords t) ((dats m 0 c).after 7 t) = _
  rw [after0_7]
  unfold out0_7
  simp only [View.ld_unit_zero (S := S256x512) hz, View.ld_unit_zero (S := S512x3584) hz, View.ld_unit_zero (S := S1x3584) hz]
  refine funext fun (y : S256x512.Idx) => ?_
  obtain ⟨p, q, rfl⟩ : ∃ (p : Fin 256) (q : Fin 512), y = ix2 p q := ⟨y 0, y 1, eq_ix2 y⟩
  have hemb : ((cfg0.win 7).blk t).view.emb (ix2 p q) = ix2 (brow t p) q := funext fun a => Fin.ext (by
    match a with
    | ⟨0, _⟩ => show win0_7.index t (0 : Fin 2) * 256 + 1 * p.val = 256 * t.val + p.val; rw [hi.1]; omega
    | ⟨1, _⟩ => show win0_7.index t (1 : Fin 2) * 512 + 1 * q.val = q.val; rw [hi.2]; omega)
  show _ = whole_ci m c (((cfg0.win 7).blk t).view.emb (ix2 p q))
  rw [hemb]
  refine (Value.canon7_eq (iblk m c 0 t) (iblk m c 1 t) (iblk m c 4 t) (iblk m c 5 t) (iblk m c 6 t) (iblk m c 2 t) (ix2 p q)).trans ?_
  exact ci_elem (argX m c) (argH m c) (argW m c) (argB m c) (iblk m c 0 t) (iblk m c 1 t) (iblk m c 4 t) (iblk m c 5 t) (iblk m c 6 t) (brow t p) p (argC m c) (iblk m c 2 t) q
    (block_preact m c t p) (ct_block_apply m c t p q)

/-- An index of the array is in point t's block iff each coordinate is in the block's range on its axis. -/
theorem ci_mem_block (t : Fin cfg0.N) (i : S32768x512.Idx) :
    i ∈ ((cfg0.win 7).blk t).view.set ↔ ∀ a : Fin 2, win0_7.index t a * S256x512.size a ≤ (i a).val
      ∧ (i a).val < win0_7.index t a * S256x512.size a + S256x512.size a := by
  show i ∈ ((View.whole main_v5_0).slice (win0_7.rect t)).set ↔ _
  rw [View.set_slice_whole, Rect.mem_set_unit]
  exact Iff.rfl

/-- Every row r of the array lies in the block of grid point r / 256, which is written back. -/
theorem ci_cover (i : S32768x512.Idx) :
    ∃ t : Fin cfg0.N, (cfg0.win 7).flush t = true ∧ i ∈ ((cfg0.win 7).blk t).view.set := by
  have hi0 : (i 0).val < 32768 := (i 0).isLt
  have hi1 : (i 1).val < 512 := (i 1).isLt
  have hN : cfg0.N = 128 := N_0
  refine ⟨⟨(i 0).val / 256, by rw [hN]; omega⟩, flush0_7 _, ?_⟩
  have hi := (row_blocks (⟨(i 0).val / 256, by rw [hN]; omega⟩ : Fin cfg0.N)).2.2.2.2.1
  rw [ci_mem_block]
  intro a
  match a with
  | ⟨0, _⟩ =>
    show win0_7.index _ (0 : Fin 2) * 256 ≤ (i 0).val ∧ (i 0).val < win0_7.index _ (0 : Fin 2) * 256 + 256
    rw [hi.1]
    show (i 0).val / 256 * 256 ≤ (i 0).val ∧ (i 0).val < (i 0).val / 256 * 256 + 256
    omega
  | ⟨1, _⟩ =>
    show win0_7.index _ (1 : Fin 2) * 512 ≤ (i 1).val ∧ (i 1).val < win0_7.index _ (1 : Fin 2) * 512 + 512
    rw [hi.2]
    omega

/-- After the run the c_i array is the reference's function of the arguments. -/
theorem ci_final (c : Dev nD) : (dats m 0 c).arrAt 7 cfg0.N = whole_ci m c :=
  (dats m 0 c).arrAt_eq_of_cover 7 (whole_ci m c) (fun t _ => ci_flushed m c t) ci_cover

/-! ## c_target_new (output window 8) -/

/-- The whole c_target_new array the reference computes from the arguments as launched. -/
abbrev whole_ctarget (c : Dev nD) : S32768x512.Idx → EReal :=
  Cert.ReferenceIdeal.Read.val_main_v53 (F := Ideal) (argX m c) (argH m c) (argT m c) (argW m c) (argB m c)

/-- What grid point t writes back for c_target_new is rows 256·t … 256·t + 255 of that array. -/
theorem ctarget_flushed (c : Dev nD) (t : Fin cfg0.N) :
    (dats m 0 c).flushed 8 t = ((cfg0.win 8).blk t).view.read (Elt Ideal) (whole_ctarget m c) := by
  have hi := (row_blocks t).2.2.2.2.2.1
  show (cfg0.win 8).cut (grid0.coords t) ((dats m 0 c).after 8 t) = _
  rw [after0_8]
  unfold out0_8
  simp only [View.ld_unit_zero (S := S256x512) hz, View.ld_unit_zero (S := S512x3584) hz, View.ld_unit_zero (S := S1x3584) hz]
  refine funext fun (y : S256x512.Idx) => ?_
  obtain ⟨p, q, rfl⟩ : ∃ (p : Fin 256) (q : Fin 512), y = ix2 p q := ⟨y 0, y 1, eq_ix2 y⟩
  have hemb : ((cfg0.win 8).blk t).view.emb (ix2 p q) = ix2 (brow t p) q := funext fun a => Fin.ext (by
    match a with
    | ⟨0, _⟩ => show win0_8.index t (0 : Fin 2) * 256 + 1 * p.val = 256 * t.val + p.val; rw [hi.1]; omega
    | ⟨1, _⟩ => show win0_8.index t (1 : Fin 2) * 512 + 1 * q.val = q.val; rw [hi.2]; omega)
  show _ = whole_ctarget m c (((cfg0.win 8).blk t).view.emb (ix2 p q))
  rw [hemb]
  refine (Value.canon8_eq (iblk m c 0 t) (iblk m c 1 t) (iblk m c 4 t) (iblk m c 5 t) (iblk m c 6 t) (iblk m c 3 t) (ix2 p q)).trans ?_
  exact ctarget_elem (argX m c) (argH m c) (argW m c) (argB m c) (iblk m c 0 t) (iblk m c 1 t) (iblk m c 4 t) (iblk m c 5 t) (iblk m c 6 t) (brow t p) p (argT m c) (iblk m c 3 t) q
    (block_preact m c t p) (ctarget_block_apply m c t p q)

/-- An index of the array is in point t's block iff each coordinate is in the block's range on its axis. -/
theorem ctarget_mem_block (t : Fin cfg0.N) (i : S32768x512.Idx) :
    i ∈ ((cfg0.win 8).blk t).view.set ↔ ∀ a : Fin 2, win0_8.index t a * S256x512.size a ≤ (i a).val
      ∧ (i a).val < win0_8.index t a * S256x512.size a + S256x512.size a := by
  show i ∈ ((View.whole main_v5_1).slice (win0_8.rect t)).set ↔ _
  rw [View.set_slice_whole, Rect.mem_set_unit]
  exact Iff.rfl

/-- Every row r of the array lies in the block of grid point r / 256, which is written back. -/
theorem ctarget_cover (i : S32768x512.Idx) :
    ∃ t : Fin cfg0.N, (cfg0.win 8).flush t = true ∧ i ∈ ((cfg0.win 8).blk t).view.set := by
  have hi0 : (i 0).val < 32768 := (i 0).isLt
  have hi1 : (i 1).val < 512 := (i 1).isLt
  have hN : cfg0.N = 128 := N_0
  refine ⟨⟨(i 0).val / 256, by rw [hN]; omega⟩, flush0_8 _, ?_⟩
  have hi := (row_blocks (⟨(i 0).val / 256, by rw [hN]; omega⟩ : Fin cfg0.N)).2.2.2.2.2.1
  rw [ctarget_mem_block]
  intro a
  match a with
  | ⟨0, _⟩ =>
    show win0_8.index _ (0 : Fin 2) * 256 ≤ (i 0).val ∧ (i 0).val < win0_8.index _ (0 : Fin 2) * 256 + 256
    rw [hi.1]
    show (i 0).val / 256 * 256 ≤ (i 0).val ∧ (i 0).val < (i 0).val / 256 * 256 + 256
    omega
  | ⟨1, _⟩ =>
    show win0_8.index _ (1 : Fin 2) * 512 ≤ (i 1).val ∧ (i 1).val < win0_8.index _ (1 : Fin 2) * 512 + 512
    rw [hi.2]
    omega

/-- After the run the c_target_new array is the reference's function of the arguments. -/
theorem ctarget_final (c : Dev nD) : (dats m 0 c).arrAt 8 cfg0.N = whole_ctarget m c :=
  (dats m 0 c).arrAt_eq_of_cover 8 (whole_ctarget m c) (fun t _ => ctarget_flushed m c t) ctarget_cover

/-! ## the output gate (output window 9) -/

/-- The whole output-gate array the reference computes from the arguments as launched. -/
abbrev whole_output (c : Dev nD) : S32768x512.Idx → EReal :=
  Cert.ReferenceIdeal.Read.val_main_v41 (F := Ideal) (argX m c) (argH m c) (argW m c) (argB m c)

/-- What grid point t writes back for the output gate are rows 256·t … 256·t + 255 of that array. -/
theorem output_flushed (c : Dev nD) (t : Fin cfg0.N) :
    (dats m 0 c).flushed 9 t = ((cfg0.win 9).blk t).view.read (Elt Ideal) (whole_output m c) := by
  have hi := (row_blocks t).2.2.2.2.2.2.1
  show (cfg0.win 9).cut (grid0.coords t) ((dats m 0 c).after 9 t) = _
  rw [after0_9]
  unfold out0_9
  simp only [View.ld_unit_zero (S := S256x512) hz, View.ld_unit_zero (S := S512x3584) hz, View.ld_unit_zero (S := S1x3584) hz]
  refine funext fun (y : S256x512.Idx) => ?_
  obtain ⟨p, q, rfl⟩ : ∃ (p : Fin 256) (q : Fin 512), y = ix2 p q := ⟨y 0, y 1, eq_ix2 y⟩
  have hemb : ((cfg0.win 9).blk t).view.emb (ix2 p q) = ix2 (brow t p) q := funext fun a => Fin.ext (by
    match a with
    | ⟨0, _⟩ => show win0_9.index t (0 : Fin 2) * 256 + 1 * p.val = 256 * t.val + p.val; rw [hi.1]; omega
    | ⟨1, _⟩ => show win0_9.index t (1 : Fin 2) * 512 + 1 * q.val = q.val; rw [hi.2]; omega)
  show _ = whole_output m c (((cfg0.win 9).blk t).view.emb (ix2 p q))
  rw [hemb]
  refine (Value.canon9_eq (iblk m c 0 t) (iblk m c 1 t) (iblk m c 4 t) (iblk m c 5 t) (iblk m c 6 t) (ix2 p q)).trans ?_
  exact output_elem (argX m c) (argH m c) (argW m c) (argB m c) (iblk m c 0 t) (iblk m c 1 t) (iblk m c 4 t) (iblk m c 5 t) (iblk m c 6 t) (brow t p) p q (block_preact m c t p)

/-- An index of the array is in point t's block iff each coordinate is in the block's range on its axis. -/
theorem output_mem_block (t : Fin cfg0.N) (i : S32768x512.Idx) :
    i ∈ ((cfg0.win 9).blk t).view.set ↔ ∀ a : Fin 2, win0_9.index t a * S256x512.size a ≤ (i a).val
      ∧ (i a).val < win0_9.index t a * S256x512.size a + S256x512.size a := by
  show i ∈ ((View.whole main_v5_2).slice (win0_9.rect t)).set ↔ _
  rw [View.set_slice_whole, Rect.mem_set_unit]
  exact Iff.rfl

/-- Every row r of the array lies in the block of grid point r / 256, which is written back. -/
theorem output_cover (i : S32768x512.Idx) :
    ∃ t : Fin cfg0.N, (cfg0.win 9).flush t = true ∧ i ∈ ((cfg0.win 9).blk t).view.set := by
  have hi0 : (i 0).val < 32768 := (i 0).isLt
  have hi1 : (i 1).val < 512 := (i 1).isLt
  have hN : cfg0.N = 128 := N_0
  refine ⟨⟨(i 0).val / 256, by rw [hN]; omega⟩, flush0_9 _, ?_⟩
  have hi := (row_blocks (⟨(i 0).val / 256, by rw [hN]; omega⟩ : Fin cfg0.N)).2.2.2.2.2.2.1
  rw [output_mem_block]
  intro a
  match a with
  | ⟨0, _⟩ =>
    show win0_9.index _ (0 : Fin 2) * 256 ≤ (i 0).val ∧ (i 0).val < win0_9.index _ (0 : Fin 2) * 256 + 256
    rw [hi.1]
    show (i 0).val / 256 * 256 ≤ (i 0).val ∧ (i 0).val < (i 0).val / 256 * 256 + 256
    omega
  | ⟨1, _⟩ =>
    show win0_9.index _ (1 : Fin 2) * 512 ≤ (i 1).val ∧ (i 1).val < win0_9.index _ (1 : Fin 2) * 512 + 512
    rw [hi.2]
    omega

/-- After the run the output-gate array is the reference's function of the arguments. -/
theorem output_final (c : Dev nD) : (dats m 0 c).arrAt 9 cfg0.N = whole_output m c :=
  (dats m 0 c).arrAt_eq_of_cover 9 (whole_output m c) (fun t _ => output_flushed m c t) output_cover

/-! ## the decay (output window 10) -/

/-- The whole decay array the reference computes from the arguments as launched. -/
abbrev whole_decay (c : Dev nD) : S32768x512.Idx → EReal :=
  Cert.ReferenceIdeal.Read.val_main_v47 (F := Ideal) (argX m c) (argH m c) (argW m c) (argB m c)

/-- What grid point t writes back for the decay is rows 256·t … 256·t + 255 of that array. -/
theorem decay_flushed (c : Dev nD) (t : Fin cfg0.N) :
    (dats m 0 c).flushed 10 t = ((cfg0.win 10).blk t).view.read (Elt Ideal) (whole_decay m c) := by
  have hi := (row_blocks t).2.2.2.2.2.2.2
  show (cfg0.win 10).cut (grid0.coords t) ((dats m 0 c).after 10 t) = _
  rw [after0_10]
  unfold out0_10
  simp only [View.ld_unit_zero (S := S256x512) hz, View.ld_unit_zero (S := S512x3584) hz, View.ld_unit_zero (S := S1x3584) hz]
  refine funext fun (y : S256x512.Idx) => ?_
  obtain ⟨p, q, rfl⟩ : ∃ (p : Fin 256) (q : Fin 512), y = ix2 p q := ⟨y 0, y 1, eq_ix2 y⟩
  have hemb : ((cfg0.win 10).blk t).view.emb (ix2 p q) = ix2 (brow t p) q := funext fun a => Fin.ext (by
    match a with
    | ⟨0, _⟩ => show win0_10.index t (0 : Fin 2) * 256 + 1 * p.val = 256 * t.val + p.val; rw [hi.1]; omega
    | ⟨1, _⟩ => show win0_10.index t (1 : Fin 2) * 512 + 1 * q.val = q.val; rw [hi.2]; omega)
  show _ = whole_decay m c (((cfg0.win 10).blk t).view.emb (ix2 p q))
  rw [hemb]
  rw [View.canon_unit_zero hz]
  exact decay_elem (argX m c) (argH m c) (argW m c) (argB m c) (iblk m c 0 t) (iblk m c 1 t) (iblk m c 4 t) (iblk m c 5 t) (iblk m c 6 t) (brow t p) p q (block_preact m c t p)

/-- An index of the array is in point t's block iff each coordinate is in the block's range on its axis. -/
theorem decay_mem_block (t : Fin cfg0.N) (i : S32768x512.Idx) :
    i ∈ ((cfg0.win 10).blk t).view.set ↔ ∀ a : Fin 2, win0_10.index t a * S256x512.size a ≤ (i a).val
      ∧ (i a).val < win0_10.index t a * S256x512.size a + S256x512.size a := by
  show i ∈ ((View.whole main_v5_3).slice (win0_10.rect t)).set ↔ _
  rw [View.set_slice_whole, Rect.mem_set_unit]
  exact Iff.rfl

/-- Every row r of the array lies in the block of grid point r / 256, which is written back. -/
theorem decay_cover (i : S32768x512.Idx) :
    ∃ t : Fin cfg0.N, (cfg0.win 10).flush t = true ∧ i ∈ ((cfg0.win 10).blk t).view.set := by
  have hi0 : (i 0).val < 32768 := (i 0).isLt
  have hi1 : (i 1).val < 512 := (i 1).isLt
  have hN : cfg0.N = 128 := N_0
  refine ⟨⟨(i 0).val / 256, by rw [hN]; omega⟩, flush0_10 _, ?_⟩
  have hi := (row_blocks (⟨(i 0).val / 256, by rw [hN]; omega⟩ : Fin cfg0.N)).2.2.2.2.2.2.2
  rw [decay_mem_block]
  intro a
  match a with
  | ⟨0, _⟩ =>
    show win0_10.index _ (0 : Fin 2) * 256 ≤ (i 0).val ∧ (i 0).val < win0_10.index _ (0 : Fin 2) * 256 + 256
    rw [hi.1]
    show (i 0).val / 256 * 256 ≤ (i 0).val ∧ (i 0).val < (i 0).val / 256 * 256 + 256
    omega
  | ⟨1, _⟩ =>
    show win0_10.index _ (1 : Fin 2) * 512 ≤ (i 1).val ∧ (i 1).val < win0_10.index _ (1 : Fin 2) * 512 + 512
    rw [hi.2]
    omega

/-- After the run the decay array is the reference's function of the arguments. -/
theorem decay_final (c : Dev nD) : (dats m 0 c).arrAt 10 cfg0.N = whole_decay m c :=
  (dats m 0 c).arrAt_eq_of_cover 10 (whole_decay m c) (fun t _ => decay_flushed m c t) decay_cover

/-! ## The run, read -/

/-- Every weakly fair execution of the kernel program ends with the four result arrays at the reference's
    functions of the arguments, and the arguments unchanged. -/
theorem kernel_run : θ_run defs (onTc (τ := τ) (main (F := Ideal))) ⟨m, fun _ => 0, ρ⟩ fun r => ∀ c : Dev nD,
      r.2.mem ((c : Thread nD τ).loc main_v5_0) = whole_ci m c
      ∧ r.2.mem ((c : Thread nD τ).loc main_v5_1) = whole_ctarget m c
      ∧ r.2.mem ((c : Thread nD τ).loc main_v5_2) = whole_output m c
      ∧ r.2.mem ((c : Thread nD τ).loc main_v5_3) = whole_decay m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (ci_final m c),
      (h c).2.1.trans (ctarget_final m c),
      (h c).2.2.1.trans (output_final m c),
      (h c).2.2.2.1.trans (decay_final m c),
      (h c).2.2.2.2⟩)
    (Value.run_blocks m ρ)

end Cert.Cell

end
-- ==== Proof.lean ====
/-
  A recurrent cell with a tracked target state: kernel against reference on the extended reals.

  Inputs: x, h_t, c_t, c_target (32768 × 512 each), W (1024 × 3584), b (3584). With
  g = [x | h_t] · W + b (32768 × 3584) cut into seven gates of 512 columns, the four results are

      c_i          = σ(g₁) ⊙ c_t       + σ(g₀) ⊙ tanh(g₅)
      c_target_new = σ(g₃) ⊙ c_target  + σ(g₂) ⊙ tanh(g₅)
      output       = σ(g₄)
      decay        = softplus(1 · g₆) / 1 .

  The kernel walks the batch in 128 blocks of 256 rows and forms g per block as
  x · W[0:512] + h_t · W[512:1024] + b, two products in place of the reference's one over the joined
  columns. The two agree because a finite sum may be split in two (Halves, Preact); every later step is
  the same function of g on both sides, once the reference's written-out sigmoid 1/(1 + e^(-g)) is read
  as the logistic function and the two spellings of softplus are matched (Gates); the blocks tile the
  arrays (Blocks). Nothing here needs the inputs to be finite: the precondition is not opened.

  The three frames: the two kernel programs' are the generated frame theorems; the reference has no
  kernel, and its frame is its run with the results dropped. The kernel's idealization rewrote no
  operation, so that claim is trivial.
-/
import proofs.«111469_j9715216023707_1_alg».proof.Defs
import proofs.«111469_j9715216023707_1_alg».proof.Proof.Gen.Kernel
import proofs.«111469_j9715216023707_1_alg».proof.Proof.Gen.Kernel.Skeleton
import proofs.«111469_j9715216023707_1_alg».proof.Proof.Gen.Kernel.Launch
import proofs.«111469_j9715216023707_1_alg».proof.Proof.Gen.Kernel.Points
import proofs.«111469_j9715216023707_1_alg».proof.Proof.Gen.Kernel.Frame
import proofs.«111469_j9715216023707_1_alg».proof.Proof.Gen.KernelIdeal
import proofs.«111469_j9715216023707_1_alg».proof.Proof.Gen.KernelIdeal.Skeleton
import proofs.«111469_j9715216023707_1_alg».proof.Proof.Gen.KernelIdeal.Launch
import proofs.«111469_j9715216023707_1_alg».proof.Proof.Gen.KernelIdeal.Points
import proofs.«111469_j9715216023707_1_alg».proof.Proof.Gen.KernelIdeal.Frame
import proofs.«111469_j9715216023707_1_alg».proof.Proof.Gen.ReferenceIdeal
import proofs.«111469_j9715216023707_1_alg».proof.Proof.Gen.Pre_finite_inputs
import proofs.«111469_j9715216023707_1_alg».proof.Proof.Gen.KernelIdeal.Value
import proofs.«111469_j9715216023707_1_alg».proof.Proof.Gen.ReferenceIdeal.Run
import proofs.«111469_j9715216023707_1_alg».proof.Proof.Gen.ReferenceIdeal.Read
import proofs.«111469_j9715216023707_1_alg».proof.Proof.Blocks
import Idealize.ShloMosaic.Adequacy
import Idealize.ShloMosaic.Init

noncomputable section

namespace Cert.Proof

open Idealize.ShloMosaic Idealize.SL.Sem

/-- The kernel program terminates without fault and leaves its arguments as they were. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference's frame is its run, the four results dropped. -/
theorem frame_reference_ideal : Cert.frame_ReferenceIdeal := fun m ρ _ =>
  (θ_run Cert.ReferenceIdeal.defs _ _).mono (fun _ h c => (h c).2.2.2.2)
    (Cert.ReferenceIdeal.Value.run (F := Ideal) m ρ)

/-- No operation was rewritten in reading the kernel on the extended reals. -/
theorem preserves : Cert.preserves_Kernel_KernelIdeal := trivial

/-- From memories that agree on the six arguments both programs end with the same four arrays: the
    reference's functions of the arguments, which the kernel's run reaches block by block. -/
theorem algebraic : Cert.algebraic_KernelIdeal_ReferenceIdeal := by
  intro m ρ m' ρ' _ hagree
  refine ⟨fun c => Cert.Cell.whole_ci m c, fun c => Cert.Cell.whole_ctarget m c, fun c => Cert.Cell.whole_output m c,
    fun c => Cert.Cell.whole_decay m c, Cert.Cell.kernel_run m ρ, ?_⟩
  refine (θ_run Cert.ReferenceIdeal.defs _ _).mono (fun _ h c => ?_)
    (Cert.ReferenceIdeal.Value.run (F := Ideal) m' ρ')
  obtain ⟨e0, e1, e2, e3, e4, e5⟩ := hagree c
  refine ⟨(h c).1.trans ?_, (h c).2.1.trans ?_, (h c).2.2.1.trans ?_, (h c).2.2.2.1.trans ?_, (h c).2.2.2.2⟩
  · rw [e0, e1, e2, e4, e5]; rfl
  · rw [e0, e1, e3, e4, e5]; rfl
  · rw [e0, e1, e4, e5]; rfl
  · rw [e0, e1, e4, e5]; rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
